-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x2048 : Shape := ⟨2, ![1024, 2048]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x1024 .f32) (main_arg1 : FVec F S8x2048x1024 .f32) (main_arg2 : FVec F S8x2048x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8x2048x1024 : Shape := ⟨3, ![8, 2048, 1024]⟩
abbrev S1024x2048 : Shape := ⟨2, ![1024, 2048]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S1024x1024 : Shape := ⟨2, ![1024, 1024]⟩

abbrev nBuf : Space → Nat
  | .hbm => 28
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x2048, .bf16⟩
  | .hbm, ⟨12, _⟩ => ⟨S1024x2048, .bf16⟩
  | .hbm, ⟨13, _⟩ => ⟨S1024x2048, .bf16⟩
  | .hbm, ⟨14, _⟩ => ⟨S1024x2048, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  shapeCasts_S1024_S1x1024 : S1024.ShapeCasts S1x1024
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1024x2048_o0_0_S1024x1024 : S1024x2048.Slices ![0, 0] S1024x1024
  slices_S1024x2048_o0_1024_S1024x1024 : S1024x2048.Slices ![0, 1024] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S8x2048x1024 : S16384x1024.ShapeCasts S8x2048x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .f32 = 32 ∨ (Rect.block (s := S16384x1024) S512x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S16384x1024.size a
  hwx0_12 : ∀ i : grid0.Coords, EltTy.bits .f32 = 32 ∨ (Rect.block (s := S16384x1024) S512x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S16384x1024.size a
  hwx0_13 : ∀ i : grid0.Coords, EltTy.bits .f32 = 32 ∨ (Rect.block (s := S16384x1024) S512x1024.size (cc0_transform_13 i) (hinb0_13 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11_0) S512x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11_1) S512x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11_2) S512x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x2048 : Shape := ⟨2, ![1024, 2048]⟩
abbrev S1024 : Shape := ⟨1, ![1024]⟩
abbrev S8x2048x2048 : Shape := ⟨3, ![8, 2048, 2048]⟩
abbrev S4096x2048 : Shape := ⟨2, ![4096, 2048]⟩
abbrev S4096 : Shape := ⟨1, ![4096]⟩
abbrev S8x2048x4096 : Shape := ⟨3, ![8, 2048, 4096]⟩
abbrev S1x1x4096 : Shape := ⟨3, ![1, 1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8x2048x2048, .f32⟩
  | .hbm, ⟨12, _⟩ => ⟨S4096x2048, .f32⟩
  | .hbm, ⟨13, _⟩ => ⟨S4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8x2048x1024_S8x2048x1024_S8x2048x2048_d2 : Shape.Concatenates [S8x2048x1024, S8x2048x1024] S8x2048x2048 2
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  slices_S8x2048x4096_S8x2048x1024_0_0_0 : S8x2048x4096.Slices ![0, 0, 0] S8x2048x1024
  slices_S8x2048x4096_S8x2048x1024_0_0_1024 : S8x2048x4096.Slices ![0, 0, 1024] S8x2048x1024
  slices_S8x2048x4096_S8x2048x1024_0_0_2048 : S8x2048x4096.Slices ![0, 0, 2048] S8x2048x1024
  slices_S8x2048x4096_S8x2048x1024_0_0_3072 : S8x2048x4096.Slices ![0, 0, 3072] S8x2048x1024
  bcast_S_S8x2048x1024 : S_.BroadcastsInDim S8x2048x1024 (![] : Fin 0 → Fin S8x2048x1024.rank)
  dot_S8x2048x2048_S4096x2048_S8x2048x4096_2_1_01_0_n_n_wf : DotDims.WF S8x2048x2048 S4096x2048 S8x2048x4096 [2] [1] [0, 1] [0] [] []

variable [Facts₀]

def dot_S8x2048x2048_S4096x2048_S8x2048x4096_2_1_01_0_n_n : DotDims S8x2048x2048 S4096x2048 S8x2048x4096 where
  lhsContracting := [2]
  rhsContracting := [1]
  lhsNonContracting := [0, 1]
  rhsNonContracting := [0]
  lhsBatch := []
  rhsBatch := []
  wf := dot_S8x2048x2048_S4096x2048_S8x2048x4096_2_1_01_0_n_n_wf

class Facts : Prop extends Facts₀ where

variable [Facts]
-- ==== Proof.LibBlockOps.lean ====
/-
  General lemmas: the operations of a field-wise product of embeddings, read at an index written with `ix2` / `ix3`,
  at the ideal values.

  * an `[a, b]` array cast to `[a, b, 1]` and an `[a, b, 1]` array broadcast over `c` lanes (a per-field scalar spread
    along the embedding axis);
  * the sum over the MIDDLE axis of an `[a, b, c]` array as a sum over `Fin b`;
  * a slab of an `[a, b, c]` array cut along axis 0, and an `[a, 1, c]` array cast to `[a, c]`;
  * a matrix product `[a, k] × [b, k]` contracting both operands' LAST axes into a zero accumulator, as the sum over
    `Fin k` of the products;
  * the host's sum over the last axis of an `[a, b]` array and over the middle axis of an `[a, b, c]` array, from a
    rank-zero initial value, as that value plus the sum over the axis;
  * one field's contribution: the product of field `o`'s `[a, c]` slab of an `[a, b, c]` array with field `o`'s
    `[n, c]` slab of a `[b, n, c]` array, as the sum over the embedding axis.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibBlockOps

open Idealize.ShloMosaic Idealize.ShloMosaic.ValueIdx

variable {α : Type}

/-- An `[a, b]` array cast to `[a, b, 1]` reads, at `(p, f, u)`, the operand at `(p, f)`. -/
theorem shapeCast_ab_ab1_apply {a b : ℕ} (x : (⟨2, ![a, b]⟩ : Shape).Idx → α)
    (h : (⟨2, ![a, b]⟩ : Shape).ShapeCasts ⟨3, ![a, b, 1]⟩) (p : Fin a) (f : Fin b) (u : Fin 1) :
    shapeCast ⟨3, ![a, b, 1]⟩ x h (ix3 p f u) = x (ix2 p f) :=
  shapeCast_apply x h _ _ (by
    have hu : u.val = 0 := by omega
    rw [Shape.rowMajor_val_two, Shape.rowMajor_val_three]
    show p.val * b + f.val = (p.val * b + f.val) * 1 + u.val
    rw [hu, Nat.mul_one, Nat.add_zero])

/-- An `[a, b, 1]` array broadcast to `[a, b, c]` reads, at `(p, f, k)`, the operand at `(p, f, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ v h (ix3 p f k) = v (ix3 p f (0 : Fin 1)) := by
  refine broadcastTo_apply v h (ix3 p f k) (ix3 p f (0 : Fin 1)) fun ax => ?_
  match ax with
  | ⟨0, _⟩ =>
    show p.val = if a = 1 then 0 else p.val
    split
    · have := p.isLt; omega
    · rfl
  | ⟨1, _⟩ =>
    show f.val = if b = 1 then 0 else f.val
    split
    · have := f.isLt; omega
    · rfl
  | ⟨2, _⟩ => rfl

/-- The reduced index `(p, k)` of an `[a, b, c]` array with coordinate `f` put back on axis 1 is `(p, f, k)`. -/
theorem lift_mid {a b c : ℕ} (h : (⟨3, ![a, b, c]⟩ : Shape).Reduces [1] (⟨2, ![a, c]⟩ : Shape)) (p : Fin a) (k : Fin c)
    (f : Fin ((⟨3, ![a, b, c]⟩ : Shape).size 1)) : h.lift (ix2 p k) f = ix3 p (⟨f.val, f.isLt⟩ : Fin b) k := by
  funext ax; apply Fin.ext
  fin_cases ax <;> rfl

/-- The sum over the middle axis of an `[a, b, c]` array, read at `(p, k)`: the sum over `f` of the entries `(p, f, k)`. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (k : Fin c) :
    multiReduction .add [1] ⟨2, ![a, c]⟩ src acc h hφ hacc (ix2 p k) = ∑ f : Fin b, src (ix3 p f k) := by
  refine (Ideal.multiReduction_add_single src acc h hφ hacc (ix2 p k)).trans ?_
  exact Finset.sum_congr rfl fun f _ => congrArg src (lift_mid h p k f)

/-- The reduced index `p` of an `[a, b]` array with lane `c` put back on axis 1 is `(p, c)`. -/
theorem lift_last {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- The host's sum over the last axis of an `[a, b]` array, read at row `p`: the initial value plus the row's sum. -/
theorem hostLastSum_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (hu : 0 < (⟨0, ![]⟩ : Shape).numel) (p : Fin a) :
    Host.reduceAdd x init h' hu (ix1 p) = init ix0 + ∑ c : Fin b, x (ix2 p c) := by
  have h : (⟨2, ![a, b]⟩ : Shape).Reduces [1] (⟨1, ![a]⟩ : Shape) := ⟨h'.1, Nat.one_pos, h'.2⟩
  show Ideal.hostReduceAdd h' x (init (Shape.Idx.first hu)) (ix1 p) = _
  rw [Ideal.hostReduceAdd_single h' h, show Shape.Idx.first hu = ix0 from eq_ix0 _]
  exact congrArg (init ix0 + ·) (Finset.sum_congr rfl fun c _ => congrArg x (lift_last h p c))

/-- The host's sum over the middle axis of an `[a, b, c]` array, read at `(p, k)`: the initial value plus the sum over
    `f` of the entries `(p, f, k)`. -/
theorem hostMidSum_apply {a b c : ℕ} (x : FVec Ideal ⟨3, ![a, b, c]⟩ .f32) (init : (⟨0, ![]⟩ : Shape).Idx → Ideal .f32)
    (h' : (⟨3, ![a, b, c]⟩ : Shape).ReducesTo [1] (⟨2, ![a, c]⟩ : Shape)) (hu : 0 < (⟨0, ![]⟩ : Shape).numel)
    (p : Fin a) (k : Fin c) :
    Host.reduceAdd x init h' hu (ix2 p k) = init ix0 + ∑ f : Fin b, x (ix3 p f k) := by
  have h : (⟨3, ![a, b, c]⟩ : Shape).Reduces [1] (⟨2, ![a, c]⟩ : Shape) := ⟨h'.1, Nat.succ_pos 1, h'.2⟩
  show Ideal.hostReduceAdd h' x (init (Shape.Idx.first hu)) (ix2 p k) = _
  rw [Ideal.hostReduceAdd_single h' h, show Shape.Idx.first hu = ix0 from eq_ix0 _]
  exact congrArg (init ix0 + ·) (Finset.sum_congr rfl fun f _ => congrArg x (lift_mid h p k f))

/-- A rank-3 array cut along axis 0 from `o` reads, at `(j, b, e)`, the source at `(k, b, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A matrix product of an `[a, k]` by a `[b, k]` array into the zero accumulator, whose dimension record contracts the
    LAST axis of each operand (the four coordinate facts), is at `(p, j)` the sum over `q` of `L (p, q) · R (j, q)`. -/
theorem matmul_zero_nt_ix2 {a k b : ℕ} {φ₁ φ₂ : FTy} (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (L : FVec Ideal ⟨2, ![a, k]⟩ φ₁) (R : FVec Ideal ⟨2, ![b, k]⟩ φ₂) (p : Fin a) (j : Fin b) :
    FloatOps.matmul D prec L R (constant ⟨2, ![a, b]⟩ .f32 0x00000000#32) (ix2 p j) = ∑ q : Fin k, L (ix2 p q) * R (ix2 j q) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 j q := funext fun ax => Fin.ext (by
    match ax with
    | ⟨0, _⟩ => exact hr0 _ _
    | ⟨1, _⟩ => exact (hr1 _ _).trans hq)
  rw [el, er]

/-- One field's contribution to a field-by-field product: field `o`'s `[a, c]` slab of `E : [a, b, c]` times field `o`'s
    `[n, c]` slab of `W : [b, n, c]`, contracted over the embedding axis into a zero accumulator, is at `(p, j)` the sum
    over `q` of `E (p, o, q) · W (o, j, q)`. -/
theorem fieldStep_apply {a b c n : ℕ} {φ₁ φ₂ : FTy} (D : DotDims ⟨2, ![a, c]⟩ ⟨2, ![n, c]⟩ ⟨2, ![a, n]⟩)
    (hr : D.contr.rank = 1) (hs : D.contr.size ⟨0, by omega⟩ = c)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (E : FVec Ideal ⟨3, ![a, b, c]⟩ φ₁) (W : FVec Ideal ⟨3, ![b, n, c]⟩ φ₂) (o : ℕ) (ho : o < b)
    (h1 : (⟨3, ![a, b, c]⟩ : Shape).Slices ![0, o, 0] ⟨3, ![a, 1, c]⟩) (c1 : (⟨3, ![a, 1, c]⟩ : Shape).ShapeCasts ⟨2, ![a, c]⟩)
    (h2 : (⟨3, ![b, n, c]⟩ : Shape).Slices ![o, 0, 0] ⟨3, ![1, n, c]⟩) (c2 : (⟨3, ![1, n, c]⟩ : Shape).ShapeCasts ⟨2, ![n, c]⟩)
    (p : Fin a) (j : Fin n) :
    FloatOps.matmul D prec (shapeCast ⟨2, ![a, c]⟩ (extractStridedSlice ⟨3, ![a, 1, c]⟩ ![0, o, 0] E h1) c1)
        (shapeCast ⟨2, ![n, c]⟩ (extractStridedSlice ⟨3, ![1, n, c]⟩ ![o, 0, 0] W h2) c2)
        (constant ⟨2, ![a, n]⟩ .f32 0x00000000#32) (ix2 p j)
      = ∑ q : Fin c, E (ix3 p ⟨o, ho⟩ q) * W (ix3 ⟨o, ho⟩ j q) := by
  rw [matmul_zero_nt_ix2 D hr hs hl0 hl1 hr0 hr1]
  refine Finset.sum_congr rfl fun q _ => ?_
  rw [shapeCast_a1c_ac_apply, shapeCast_1ab_ab_apply,
    slice3_axis1_apply o E h1 p (0 : Fin 1) q ⟨o, ho⟩ rfl, slice3_axis0_apply o W h2 (0 : Fin 1) j q ⟨o, ho⟩ rfl]

end Cert.LibBlockOps

end
-- ==== Proof.LibConcat2.lean ====
/-
  General lemmas: two rank-2 arrays joined along one axis, read at an index written with `ix2`.

  * `[a, n]` and `[a, m]` joined along axis 1 into `[a, c]`: column `k < n` of the result is column `k` of the first
    piece, column `n + k` is column `k` of the second;
  * `[n, b]` and `[m, b]` joined along axis 0 into `[c, b]`: row `k < n` is row `k` of the first piece, row `n + k` is
    row `k` of the second;
  * a sum over `Fin c` with `c = n + n` as the sum over the first `n` positions plus the sum over the last `n`.
  Nothing here mentions a program: the extents are variables and the shape relation is a hypothesis.
-/
import Idealize.ShloMosaic.Lib.Pipeline.Value
import Idealize.ShloMosaic.Lib.ValueIdx

noncomputable section

namespace Cert.LibConcat2

open Idealize.ShloMosaic Idealize.ShloMosaic.ValueIdx

variable {α : Type}

/-- Joined along the columns: a column of the first piece. -/
theorem concat_cols_left {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin n) (hk : k.val < c) :
    concatenate (⟨2, ![a, c]⟩ : Shape) 1 [⟨⟨2, ![a, n]⟩, x⟩, ⟨⟨2, ![a, m]⟩, y⟩] h (ix2 p (⟨k.val, hk⟩ : Fin c)) = x (ix2 p k) :=
  concatenate_pair_apply_left (1 : Fin (⟨2, ![a, c]⟩ : Shape).rank) x y h _ rfl (ix2 p k) (fun b => by
    match b with
    | ⟨0, _⟩ => rfl
    | ⟨1, _⟩ => rfl)

/-- Joined along the columns: a column of the second piece sits the first piece's width further on. -/
theorem concat_cols_right {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin m) (hk : n + k.val < c) :
    concatenate (⟨2, ![a, c]⟩ : Shape) 1 [⟨⟨2, ![a, n]⟩, x⟩, ⟨⟨2, ![a, m]⟩, y⟩] h (ix2 p (⟨n + k.val, hk⟩ : Fin c)) = y (ix2 p k) :=
  concatenate_pair_apply_right (1 : Fin (⟨2, ![a, c]⟩ : Shape).rank) x y h _ rfl rfl (ix2 p k) (fun b hb => by
    match b with
    | ⟨0, _⟩ => rfl
    | ⟨1, _⟩ => exact absurd rfl hb) (by show k.val + n = n + k.val; omega)

/-- Joined along the rows: a row of the first piece. -/
theorem concat_rows_top {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin n) (hk : k.val < c) (q : Fin b) :
    concatenate (⟨2, ![c, b]⟩ : Shape) 0 [⟨⟨2, ![n, b]⟩, x⟩, ⟨⟨2, ![m, b]⟩, y⟩] h (ix2 (⟨k.val, hk⟩ : Fin c) q) = x (ix2 k q) :=
  concatenate_pair_apply_left (0 : Fin (⟨2, ![c, b]⟩ : Shape).rank) x y h _ rfl (ix2 k q) (fun d => by
    match d with
    | ⟨0, _⟩ => rfl
    | ⟨1, _⟩ => rfl)

/-- Joined along the rows: a row of the second piece sits the first piece's height further down. -/
theorem concat_rows_bottom {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin m) (hk : n + k.val < c) (q : Fin b) :
    concatenate (⟨2, ![c, b]⟩ : Shape) 0 [⟨⟨2, ![n, b]⟩, x⟩, ⟨⟨2, ![m, b]⟩, y⟩] h (ix2 (⟨n + k.val, hk⟩ : Fin c) q) = y (ix2 k q) :=
  concatenate_pair_apply_right (0 : Fin (⟨2, ![c, b]⟩ : Shape).rank) x y h _ rfl rfl (ix2 k q) (fun d hd => by
    match d with
    | ⟨0, _⟩ => exact absurd rfl hd
    | ⟨1, _⟩ => rfl) (by show k.val + n = n + k.val; omega)

/-- A sum over `c = n + n` positions is the sum over the first `n` plus the sum over the last `n`. -/
theorem sum_two_halves {M : Type*} [AddCommMonoid M] {n c : ℕ} (hc : c = n + n) (f : Fin c → M) :
    ∑ q : Fin c, f q
      = ∑ k : Fin n, f ⟨k.val, by have := k.isLt; omega⟩ + ∑ k : Fin n, f ⟨n + k.val, by have := k.isLt; omega⟩ := by
  subst hc
  rw [Fin.sum_univ_add]
  rfl

end Cert.LibConcat2

end
-- ==== Proof.LibMergeRows.lean ====
/-
  General lemmas: small layout operations read at an index written with `ix1` / `ix2` / `ix3`, over variable extents.

  * the two leading axes of an `[a, b, c]` array merged into one axis of `r = a · b` rows, and an `[r, c]` array split
    back into `[a, b, c]`: row `p · b + q` of the merged array is row `(p, q)` of the split one (the row-major position
    is kept), so neither direction needs a quotient or a remainder;
  * a column `[a, 1]` re-laid as a row `[1, a]`;
  * a one-entry array `[1, 1]` spread over `[a, b]`, and a rank-zero array cast to `[1, 1]`;
  * a rank-zero array spread over any shape by a `broadcast_in_dim` with no dimensions.
  Nothing here mentions a program: the extents are variables and the shape evidence is a hypothesis.
-/
import Idealize.ShloMosaic.Lib.Pipeline.Value
import Idealize.ShloMosaic.Lib.ValueIdx
import Idealize.ShloMosaic.Lib.ValueLayout

namespace Cert.LibMergeRows

open Idealize.ShloMosaic Idealize.ShloMosaic.ValueIdx

variable {α : Type}

/-- Row `(p, q)` of an `[a, b, ·]` array sits at row `p · b + q` of the array with the two leading axes merged. -/
def mergeIdx {a b r : ℕ} (hr : r = a * b) (p : Fin a) (q : Fin b) : Fin r :=
  ⟨p.val * b + q.val, by
    subst hr
    exact Nat.lt_of_lt_of_le (Nat.add_lt_add_left q.isLt _)
      (by rw [← Nat.succ_mul]; exact Nat.mul_le_mul_right _ p.isLt)⟩

theorem mergeIdx_val {a b r : ℕ} (hr : r = a * b) (p : Fin a) (q : Fin b) : (mergeIdx hr p q).val = p.val * b + q.val := rfl

/-- An `[a, b, c]` array with its two leading axes merged reads, at row `p · b + q`, the operand's row `(p, q)`. -/
theorem shapeCast_abc_rc_apply {a b c r : ℕ} (x : (⟨3, ![a, b, c]⟩ : Shape).Idx → α)
    (h : (⟨3, ![a, b, c]⟩ : Shape).ShapeCasts ⟨2, ![r, c]⟩) (hr : r = a * b) (p : Fin a) (q : Fin b) (k : Fin c) :
    shapeCast ⟨2, ![r, c]⟩ x h (ix2 (mergeIdx hr p q) k) = x (ix3 p q k) :=
  shapeCast_apply x h _ _ (by
    rw [Shape.rowMajor_val_three, Shape.rowMajor_val_two]
    rfl)

/-- An `[r, c]` array with its leading axis split into `a` groups of `b` rows reads, at `(p, q)`, the operand's row
    `p · b + q`. -/
theorem shapeCast_rc_abc_apply {a b c r : ℕ} (y : (⟨2, ![r, c]⟩ : Shape).Idx → α)
    (h : (⟨2, ![r, c]⟩ : Shape).ShapeCasts ⟨3, ![a, b, c]⟩) (hr : r = a * b) (p : Fin a) (q : Fin b) (k : Fin c) :
    shapeCast ⟨3, ![a, b, c]⟩ y h (ix3 p q k) = y (ix2 (mergeIdx hr p q) k) :=
  shapeCast_apply y h _ _ (by
    rw [Shape.rowMajor_val_three, Shape.rowMajor_val_two]
    rfl)

/-- A column `[a, 1]` re-laid as a row `[1, a]` reads, at `(u, p)`, the column's entry `p`. -/
theorem shapeCast_a1_1a_apply {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.mul_one, Nat.add_zero, Nat.zero_mul, Nat.zero_add])

/-- A column `[a, 1]` flattened to a vector `[a]` reads, at `p`, the column's entry `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A one-entry array `[1, 1]` spread over `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A rank-zero array cast to `[1, 1]` reads its one entry. -/
theorem shapeCast_0_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  congrArg x (eq_ix0 _)

/-- A rank-zero array spread over any shape reads its one entry everywhere. -/
theorem broadcastInDim_0_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

end Cert.LibMergeRows
-- ==== Proof.LstmCell.lean ====
/-
  One step of an LSTM cell over the extended reals, index by index.

  A gate's pre-activation for one row is the state row against the first 1024 entries of a weight row, the input row
  against the last 1024, plus a bias (`gateSplit`); the same number is the joined row [state | input] against the whole
  weight row plus the bias (`gateJoined`): a sum over 2048 positions is the sum over its two halves, which holds in any
  commutative additive monoid, so no entry needs to be finite.

  The cell: with f, i, g, o the four pre-activations and c the old cell entry,
    c' = σ(f)·c + σ(i)·tanh(g),   a' = σ(o)·tanh(c'),   and the output gate σ(o) itself,
  σ the logistic function and tanh the hyperbolic tangent, both total on the extended reals.

  The three results are stated twice: over the arguments as [8, 2048, 1024] arrays, and over the same arrays with the
  two leading axes merged into 16384 rows; row β·2048 + τ of the merged form is row (β, τ) of the other.
-/
import Idealize.ShloMosaic.PureOps.Ideal
import Idealize.ShloMosaic.Lib.ValueIdx
import proofs.«158978_j31104153158088_2_alg».proof.Proof.LibConcat2
import proofs.«158978_j31104153158088_2_alg».proof.Proof.LibMergeRows

noncomputable section

namespace Cert.LstmCell

open Idealize.ShloMosaic Idealize.ShloMosaic.ValueIdx Cert.LibMergeRows

/-! ## One gate, one row -/

/-- Position `k` of the first half of a weight row. -/
def lo (k : Fin 1024) : Fin 2048 := ⟨k.val, by have := k.isLt; omega⟩
/-- Position `k` of the second half of a weight row. -/
def hi (k : Fin 1024) : Fin 2048 := ⟨1024 + k.val, by have := k.isLt; omega⟩

/-- The state row against the first half of the weight row, the input row against the second half, plus the bias. -/
def gateSplit (a x : Fin 1024 → EReal) (w : Fin 2048 → EReal) (b : EReal) : EReal :=
  (∑ k : Fin 1024, a k * w (lo k)) + (∑ k : Fin 1024, x k * w (hi k)) + b

/-- The joined row against the whole weight row, plus the bias. -/
def gateJoined (ax w : Fin 2048 → EReal) (b : EReal) : EReal := (∑ k : Fin 2048, ax k * w k) + b

/-- The two forms agree when the joined row is the state row followed by the input row. -/
theorem gateJoined_eq_split (a x : Fin 1024 → EReal) (ax w : Fin 2048 → EReal) (b : EReal)
    (hl : ∀ k, ax (lo k) = a k) (hr : ∀ k, ax (hi k) = x k) : gateJoined ax w b = gateSplit a x w b := by
  unfold gateJoined gateSplit
  rw [LibConcat2.sum_two_halves (n := 1024) (c := 2048) rfl (fun k => ax k * w k)]
  show (∑ k : Fin 1024, ax (lo k) * w (lo k)) + (∑ k : Fin 1024, ax (hi k) * w (hi k)) + b = _
  simp only [hl, hr]

/-- A gate's pre-activation depends only on the entries of its three rows and its bias. -/
theorem gateSplit_congr {a a' x x' : Fin 1024 → EReal} {w w' : Fin 2048 → EReal} {b b' : EReal}
    (ha : ∀ k, a k = a' k) (hx : ∀ k, x k = x' k) (hw : ∀ k, w k = w' k) (hb : b = b') :
    gateSplit a x w b = gateSplit a' x' w' b' := by
  rw [show a = a' from funext ha, show x = x' from funext hx, show w = w' from funext hw, hb]

/-! ## The cell, one entry -/

/-- The new cell entry from the forget, input and candidate pre-activations and the old cell entry. -/
def cellC (f i g c : EReal) : EReal := Ideal.logistic f * c + Ideal.logistic i * Ideal.tanh g

/-- The new state entry from the output pre-activation and the new cell entry. -/
def cellA (o cn : EReal) : EReal := Ideal.logistic o * Ideal.tanh cn

/-! ## The three results over [8, 2048, 1024] arguments -/

abbrev SAct : Shape := ⟨3, ![8, 2048, 1024]⟩
abbrev SFlat : Shape := ⟨2, ![16384, 1024]⟩
abbrev SW : Shape := ⟨2, ![1024, 2048]⟩
abbrev SB : Shape := ⟨1, ![1024]⟩
abbrev SB1 : Shape := ⟨2, ![1, 1024]⟩

/-- One gate's pre-activation at batch `β`, step `τ`, unit `h`. -/
def pre (a x : SAct.Idx → EReal) (w : SW.Idx → EReal) (b : SB.Idx → EReal) (β : Fin 8) (τ : Fin 2048) (h : Fin 1024) : EReal :=
  gateSplit (fun k => a (ix3 β τ k)) (fun k => x (ix3 β τ k)) (fun k => w (ix2 h k)) (b (ix1 h))

/-- The output gate. -/
def outO (a x : SAct.Idx → EReal) (wo : SW.Idx → EReal) (bo : SB.Idx → EReal) : SAct.Idx → EReal :=
  fun i => Ideal.logistic (pre a x wo bo (i 0) (i 1) (i 2))

/-- The new cell array. -/
def outC (a x c : SAct.Idx → EReal) (wf : SW.Idx → EReal) (bf : SB.Idx → EReal) (wi : SW.Idx → EReal) (bi : SB.Idx → EReal)
    (wc : SW.Idx → EReal) (bc : SB.Idx → EReal) : SAct.Idx → EReal :=
  fun i => cellC (pre a x wf bf (i 0) (i 1) (i 2)) (pre a x wi bi (i 0) (i 1) (i 2)) (pre a x wc bc (i 0) (i 1) (i 2)) (c i)

/-- The new state array. -/
def outA (a x c : SAct.Idx → EReal) (wf : SW.Idx → EReal) (bf : SB.Idx → EReal) (wi : SW.Idx → EReal) (bi : SB.Idx → EReal)
    (wc : SW.Idx → EReal) (bc : SB.Idx → EReal) (wo : SW.Idx → EReal) (bo : SB.Idx → EReal) : SAct.Idx → EReal :=
  fun i => cellA (pre a x wo bo (i 0) (i 1) (i 2)) (outC a x c wf bf wi bi wc bc i)

/-! ## The same over 16384 merged rows, the bias as a one-row array -/

/-- One gate's pre-activation at merged row `r`, unit `h`. -/
def preFlat (A X : SFlat.Idx → EReal) (w : SW.Idx → EReal) (b : SB1.Idx → EReal) (r : Fin 16384) (h : Fin 1024) : EReal :=
  gateSplit (fun k => A (ix2 r k)) (fun k => X (ix2 r k)) (fun k => w (ix2 h k)) (b (ix2 (0 : Fin 1) h))

def flatO (A X : SFlat.Idx → EReal) (wo : SW.Idx → EReal) (bo : SB1.Idx → EReal) : SFlat.Idx → EReal :=
  fun j => Ideal.logistic (preFlat A X wo bo (j 0) (j 1))

def flatC (A X C : SFlat.Idx → EReal) (wf : SW.Idx → EReal) (bf : SB1.Idx → EReal) (wi : SW.Idx → EReal) (bi : SB1.Idx → EReal)
    (wc : SW.Idx → EReal) (bc : SB1.Idx → EReal) : SFlat.Idx → EReal :=
  fun j => cellC (preFlat A X wf bf (j 0) (j 1)) (preFlat A X wi bi (j 0) (j 1)) (preFlat A X wc bc (j 0) (j 1)) (C j)

def flatA (A X C : SFlat.Idx → EReal) (wf : SW.Idx → EReal) (bf : SB1.Idx → EReal) (wi : SW.Idx → EReal) (bi : SB1.Idx → EReal)
    (wc : SW.Idx → EReal) (bc : SB1.Idx → EReal) (wo : SW.Idx → EReal) (bo : SB1.Idx → EReal) : SFlat.Idx → EReal :=
  fun j => cellA (preFlat A X wo bo (j 0) (j 1)) (flatC A X C wf bf wi bi wc bc j)

/-- 16384 rows are 8 groups of 2048. -/
theorem rows_eq : (16384 : ℕ) = 8 * 2048 := by norm_num

/-- The merged row of batch `β`, step `τ`. -/
abbrev row (β : Fin 8) (τ : Fin 2048) : Fin 16384 := mergeIdx rows_eq β τ

/-- A merged array `A` IS the array `a` with its leading axes merged. -/
def Merges (A : SFlat.Idx → EReal) (a : SAct.Idx → EReal) : Prop := ∀ β τ k, A (ix2 (row β τ) k) = a (ix3 β τ k)
/-- A one-row array `B` IS the vector `b` laid as a row. -/
def Rows (B : SB1.Idx → EReal) (b : SB.Idx → EReal) : Prop := ∀ h, B (ix2 (0 : Fin 1) h) = b (ix1 h)

theorem preFlat_eq {A X : SFlat.Idx → EReal} {a x : SAct.Idx → EReal} {w : SW.Idx → EReal} {B : SB1.Idx → EReal} {b : SB.Idx → EReal}
    (hA : Merges A a) (hX : Merges X x) (hB : Rows B b) (β : Fin 8) (τ : Fin 2048) (h : Fin 1024) :
    preFlat A X w B (row β τ) h = pre a x w b β τ h := by
  unfold preFlat pre
  simp only [hA β τ, hX β τ, hB h]

theorem flatO_eq {A X : SFlat.Idx → EReal} {a x : SAct.Idx → EReal} {wo : SW.Idx → EReal} {Bo : SB1.Idx → EReal} {bo : SB.Idx → EReal}
    (hA : Merges A a) (hX : Merges X x) (hBo : Rows Bo bo) (β : Fin 8) (τ : Fin 2048) (h : Fin 1024) :
    flatO A X wo Bo (ix2 (row β τ) h) = outO a x wo bo (ix3 β τ h) := by
  show Ideal.logistic (preFlat A X wo Bo (row β τ) h) = Ideal.logistic (pre a x wo bo β τ h)
  rw [preFlat_eq hA hX hBo]

theorem flatC_eq {A X C : SFlat.Idx → EReal} {a x c : SAct.Idx → EReal} {wf wi wc : SW.Idx → EReal}
    {Bf Bi Bc : SB1.Idx → EReal} {bf bi bc : SB.Idx → EReal}
    (hA : Merges A a) (hX : Merges X x) (hC : Merges C c) (hBf : Rows Bf bf) (hBi : Rows Bi bi) (hBc : Rows Bc bc)
    (β : Fin 8) (τ : Fin 2048) (h : Fin 1024) :
    flatC A X C wf Bf wi Bi wc Bc (ix2 (row β τ) h) = outC a x c wf bf wi bi wc bc (ix3 β τ h) := by
  show cellC (preFlat A X wf Bf (row β τ) h) (preFlat A X wi Bi (row β τ) h) (preFlat A X wc Bc (row β τ) h) (C (ix2 (row β τ) h))
    = cellC (pre a x wf bf β τ h) (pre a x wi bi β τ h) (pre a x wc bc β τ h) (c (ix3 β τ h))
  rw [preFlat_eq hA hX hBf, preFlat_eq hA hX hBi, preFlat_eq hA hX hBc, hC β τ h]

theorem flatA_eq {A X C : SFlat.Idx → EReal} {a x c : SAct.Idx → EReal} {wf wi wc wo : SW.Idx → EReal}
    {Bf Bi Bc Bo : SB1.Idx → EReal} {bf bi bc bo : SB.Idx → EReal}
    (hA : Merges A a) (hX : Merges X x) (hC : Merges C c) (hBf : Rows Bf bf) (hBi : Rows Bi bi) (hBc : Rows Bc bc) (hBo : Rows Bo bo)
    (β : Fin 8) (τ : Fin 2048) (h : Fin 1024) :
    flatA A X C wf Bf wi Bi wc Bc wo Bo (ix2 (row β τ) h) = outA a x c wf bf wi bi wc bc wo bo (ix3 β τ h) := by
  show cellA (preFlat A X wo Bo (row β τ) h) (flatC A X C wf Bf wi Bi wc Bc (ix2 (row β τ) h))
    = cellA (pre a x wo bo β τ h) (outC a x c wf bf wi bi wc bc (ix3 β τ h))
  rw [preFlat_eq hA hX hBo, flatC_eq hA hX hC hBf hBi hBc]

end Cert.LstmCell

end
-- ==== Proof.KernelBlock.lean ====
/-
  The cell's body on one block of 512 merged rows, read at an index.

  The body holds a block of state rows `x0`, the matching block of input rows `x1` and of old cell rows `x2`, the four
  whole weight matrices and the four biases as one-row arrays. For one gate it multiplies the state block by the first
  1024 columns of the weight, both contracted along their last axis, the input block by the last 1024 columns, adds the
  two products and the bias row spread over the 512 rows. Entry (p, q) of that sum is the gate's pre-activation of row
  `p` against weight row `q`: each product into a zero accumulator is a plain sum over 1024 positions, the narrowing of
  the operands to a shorter float format changes nothing on the extended reals, and a cast to the same shape is the
  identity. The three stored blocks are then the cell's three functions of those pre-activations, entry by entry.
-/
import proofs.«158978_j31104153158088_2_alg».proof.Proof.Gen.KernelIdeal.Skeleton
import proofs.«158978_j31104153158088_2_alg».proof.Proof.LibBlockOps
import proofs.«158978_j31104153158088_2_alg».proof.Proof.LstmCell
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.LstmCell

/-- The product's dimension record: both operands contracted along their last axis. -/
abbrev DD : DotDims S512x1024 S1024x1024 S512x1024 := dot_S512x1024_S1024x1024_S512x1024_1_1_0_0_n_n

theorem dd_l0 (i : S512x1024.Idx) (q : DD.contr.Idx) : (DD.lhsIdx i q 0).val = (i 0).val := by
  unfold DotDims.lhsIdx
  rw [dif_neg (show ¬(0 : Fin S512x1024.rank) ∈ DD.lhsBatch by decide), dif_pos (show (0 : Fin S512x1024.rank) ∈ DD.lhsNonContracting by decide)]
  rfl
theorem dd_l1 (i : S512x1024.Idx) (q : DD.contr.Idx) : (DD.lhsIdx i q 1).val = (q ⟨0, by decide⟩).val :=
  DD.lhsIdx_val_of_single rfl i q
theorem dd_r0 (i : S512x1024.Idx) (q : DD.contr.Idx) : (DD.rhsIdx i q 0).val = (i 1).val := by
  unfold DotDims.rhsIdx
  rw [dif_neg (show ¬(0 : Fin S1024x1024.rank) ∈ DD.rhsBatch by decide), dif_pos (show (0 : Fin S1024x1024.rank) ∈ DD.rhsNonContracting by decide)]
  rfl
theorem dd_r1 (i : S512x1024.Idx) (q : DD.contr.Idx) : (DD.rhsIdx i q 1).val = (q ⟨0, by decide⟩).val :=
  DD.rhsIdx_val_of_single rfl i q

/-- A product of a [512, 1024] by a [1024, 1024] array along both last axes into zero: entry (p, j) is the sum over
    `k` of `L (p, k) · R (j, k)`. -/
theorem prod_apply {φ₁ φ₂ : FTy} (L : FVec Ideal S512x1024 φ₁) (R : FVec Ideal S1024x1024 φ₂) (p : Fin 512) (j : Fin 1024) :
    FloatOps.matmul DD none L R (constant S512x1024 .f32 0x00000000#32) (ix2 p j) = ∑ k : Fin 1024, L (ix2 p k) * R (ix2 j k) :=
  LibBlockOps.matmul_zero_nt_ix2 DD rfl rfl dd_l0 dd_l1 dd_r0 dd_r1 none L R p j

/-- Narrowing a block of rows changes no entry. -/
theorem pay4_apply (v0 : Vec Ideal S512x1024 .f32) (j : S512x1024.Idx) : k0_pay4 (F := Ideal) v0 j = v0 j :=
  congrFun (shapeCast_self v0 shapeCasts_S512x1024_S512x1024) j
theorem pay5_apply (v3 : Vec Ideal S512x1024 .f32) (j : S512x1024.Idx) : k0_pay5 (F := Ideal) v3 j = v3 j :=
  congrFun (shapeCast_self v3 shapeCasts_S512x1024_S512x1024) j

/-- The two products of one gate, added: the state block against the first 1024 columns of the weight, the input
    block against the last 1024. -/
def twoProducts (x0 x1 : Vec Ideal S512x1024 .f32) (w : Vec Ideal S1024x2048 .bf16) : FVec Ideal S512x1024 .f32 :=
  addf
    (FloatOps.matmul DD none (k0_pay4 (F := Ideal) x0)
      (extractStridedSlice S1024x1024 ![0, 0] (shapeCast S1024x2048 w shapeCasts_S1024x2048_S1024x2048 : FVec Ideal S1024x2048 .bf16)
        slices_S1024x2048_o0_0_S1024x1024 : FVec Ideal S1024x1024 .bf16)
      (constant S512x1024 .f32 0x00000000#32))
    (FloatOps.matmul DD none (k0_pay5 (F := Ideal) x1)
      (extractStridedSlice S1024x1024 ![0, 1024] (shapeCast S1024x2048 w shapeCasts_S1024x2048_S1024x2048 : FVec Ideal S1024x2048 .bf16)
        slices_S1024x2048_o0_1024_S1024x1024 : FVec Ideal S1024x1024 .bf16)
      (constant S512x1024 .f32 0x00000000#32))

/-- A bias row spread over the block's 512 rows. -/
def biasRows (b : Vec Ideal S1x1024 .f32) : FVec Ideal S512x1024 .f32 :=
  broadcastTo S512x1024 (shapeCast S1x1024 b shapeCasts_S1x1024_S1x1024) broadcasts_S1x1024_S512x1024

theorem twoProducts_apply (x0 x1 : Vec Ideal S512x1024 .f32) (w : Vec Ideal S1024x2048 .bf16) (p : Fin 512) (q : Fin 1024) :
    twoProducts x0 x1 w (ix2 p q)
      = (∑ k : Fin 1024, x0 (ix2 p k) * w (ix2 q (lo k))) + (∑ k : Fin 1024, x1 (ix2 p k) * w (ix2 q (hi k))) := by
  show FloatOps.matmul (F := Ideal) DD none _ _ _ (ix2 p q) + FloatOps.matmul (F := Ideal) DD none _ _ _ (ix2 p q) = _
  rw [prod_apply, prod_apply]
  refine congrArg₂ (· + ·) (Finset.sum_congr rfl fun k _ => ?_) (Finset.sum_congr rfl fun k _ => ?_)
  · exact congrArg₂ (· * ·) (pay4_apply x0 _)
      ((slice2_axis1_apply 0 _ slices_S1024x2048_o0_0_S1024x1024 q k (lo k) (by show k.val = 0 + k.val; omega)).trans
        (congrFun (shapeCast_self w shapeCasts_S1024x2048_S1024x2048) _))
  · exact congrArg₂ (· * ·) (pay5_apply x1 _)
      ((slice2_axis1_apply 1024 _ slices_S1024x2048_o0_1024_S1024x1024 q k (hi k) rfl).trans
        (congrFun (shapeCast_self w shapeCasts_S1024x2048_S1024x2048) _))

theorem biasRows_apply (b : Vec Ideal S1x1024 .f32) (p : Fin 512) (q : Fin 1024) : biasRows b (ix2 p q) = b (ix2 (0 : Fin 1) q) :=
  (broadcastTo_1b_ab_apply _ broadcasts_S1x1024_S512x1024 p q).trans (congrFun (shapeCast_self b shapeCasts_S1x1024_S1x1024) _)

/-- One gate's pre-activation of row `p` of the block against weight row `q`. -/
def blkPre (x0 x1 : Vec Ideal S512x1024 .f32) (w : Vec Ideal S1024x2048 .bf16) (b : Vec Ideal S1x1024 .f32) (p : Fin 512) (q : Fin 1024) : EReal :=
  gateSplit (fun k => x0 (ix2 p k)) (fun k => x1 (ix2 p k)) (fun k => w (ix2 q k)) (b (ix2 (0 : Fin 1) q))

theorem gate_apply (x0 x1 : Vec Ideal S512x1024 .f32) (w : Vec Ideal S1024x2048 .bf16) (b : Vec Ideal S1x1024 .f32) (p : Fin 512) (q : Fin 1024) :
    addf (twoProducts x0 x1 w) (biasRows b) (ix2 p q) = blkPre x0 x1 w b p q := by
  show twoProducts x0 x1 w (ix2 p q) + biasRows b (ix2 p q) = _
  rw [twoProducts_apply, biasRows_apply]
  rfl

/-- The stored output-gate block, entry (p, q). -/
theorem blockO (x0 x1 : Vec Ideal S512x1024 .f32) (w6 : Vec Ideal S1024x2048 .bf16) (b10 : Vec Ideal S1x1024 .f32) (p : Fin 512) (q : Fin 1024) :
    k0_pay1 (F := Ideal) (k0_pay4 x0) (k0_pay5 x1) w6 b10 (ix2 p q) = Ideal.logistic (blkPre x0 x1 w6 b10 p q) := by
  show Ideal.logistic (addf (twoProducts x0 x1 w6) (biasRows b10) (ix2 p q)) = _
  rw [gate_apply]

/-- The stored new-cell block, entry (p, q). -/
theorem blockC (x0 x1 x2 : Vec Ideal S512x1024 .f32) (w3 w4 w5 : Vec Ideal S1024x2048 .bf16) (b7 b8 b9 : Vec Ideal S1x1024 .f32)
    (p : Fin 512) (q : Fin 1024) :
    k0_pay2 (F := Ideal) (k0_pay6 x0 x1 w3 b7) (k0_pay7 x0 x1 w4 b8) (k0_pay8 x0 x1 w5) b9 x2 (ix2 p q)
      = cellC (blkPre x0 x1 w3 b7 p q) (blkPre x0 x1 w4 b8 p q) (blkPre x0 x1 w5 b9 p q) (x2 (ix2 p q)) := by
  show Ideal.logistic (addf (twoProducts x0 x1 w3) (biasRows b7) (ix2 p q))
        * (shapeCast S512x1024 x2 shapeCasts_S512x1024_S512x1024 : FVec Ideal S512x1024 .f32) (ix2 p q)
      + Ideal.logistic (addf (twoProducts x0 x1 w4) (biasRows b8) (ix2 p q))
        * Ideal.tanh (addf (twoProducts x0 x1 w5) (biasRows b9) (ix2 p q)) = _
  rw [gate_apply, gate_apply, gate_apply, shapeCast_self]
  rfl

/-- The stored new-state block, entry (p, q). -/
theorem blockA (x0 x1 x2 : Vec Ideal S512x1024 .f32) (w3 w4 w5 w6 : Vec Ideal S1024x2048 .bf16) (b7 b8 b9 b10 : Vec Ideal S1x1024 .f32)
    (p : Fin 512) (q : Fin 1024) :
    k0_pay3 (F := Ideal) (k0_pay4 x0) (k0_pay5 x1) (k0_pay6 x0 x1 w3 b7) (k0_pay7 x0 x1 w4 b8) (k0_pay8 x0 x1 w5) b9 w6 b10 x2 (ix2 p q)
      = cellA (blkPre x0 x1 w6 b10 p q)
          (cellC (blkPre x0 x1 w3 b7 p q) (blkPre x0 x1 w4 b8 p q) (blkPre x0 x1 w5 b9 p q) (x2 (ix2 p q))) := by
  show k0_pay1 (F := Ideal) (k0_pay4 x0) (k0_pay5 x1) w6 b10 (ix2 p q)
      * Ideal.tanh (k0_pay2 (F := Ideal) (k0_pay6 x0 x1 w3 b7) (k0_pay7 x0 x1 w4 b8) (k0_pay8 x0 x1 w5) b9 x2 (ix2 p q)) = _
  rw [blockO, blockC]
  rfl

end Cert.KernelIdeal.Block

end
-- ==== Proof.KernelArrays.lean ====
/-
  From blocks to arrays: what the cell's region leaves in its three output arrays.

  The region runs the body at 32 points. Point `t` holds rows 512·t … 512·t + 511 of the merged state, input and old-cell
  arrays (block index (t, 0) of each), the four weights and the four one-row biases whole (block index (0, 0)), and
  writes back rows 512·t … 512·t + 511 of each output array. So entry (p, q) of what point `t` writes is the cell's
  function at merged row 512·t + p and unit q of the arrays as the region finds them; the 32 row ranges cover all 16384
  rows, the row of index `i` lying in the range of point ⌊i₀ / 512⌋; hence each output array after the region IS the
  cell's function of those arrays over all merged rows (`arrO`, `arrA`, `arrC`).
-/
import proofs.«158978_j31104153158088_2_alg».proof.Proof.Gen.KernelIdeal.Frame
import proofs.«158978_j31104153158088_2_alg».proof.Proof.KernelBlock
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.LstmCell Cert.KernelIdeal.Block
open Idealize.ShloMosaic.Pipeline (Dat)

variable (m : (ℓ : Loc nD τ sig) → Buf (Elt Ideal) ℓ)

theorem hz : (![0, 0] : Fin 2 → Nat) = fun _ => 0 := funext fun a => by fin_cases a <;> rfl

theorem point_lt (t : Fin cfg0.N) : t.val < 32 := lt_of_lt_of_eq t.isLt N_0

/-! ## The printed index maps, decided over the 32 points -/

/-- Window 0 moves one block of rows per point and stays on the one block of columns. -/
theorem idx_0 : ∀ t : Fin cfg0.N, win0_0.index t (0 : Fin 2) = t.val ∧ win0_0.index t (1 : Fin 2) = 0 :=
  (by decide +kernel : ∀ t : Fin grid0.N, _)
/-- Window 1 moves one block of rows per point and stays on the one block of columns. -/
theorem idx_1 : ∀ t : Fin cfg0.N, win0_1.index t (0 : Fin 2) = t.val ∧ win0_1.index t (1 : Fin 2) = 0 :=
  (by decide +kernel : ∀ t : Fin grid0.N, _)
/-- Window 2 moves one block of rows per point and stays on the one block of columns. -/
theorem idx_2 : ∀ t : Fin cfg0.N, win0_2.index t (0 : Fin 2) = t.val ∧ win0_2.index t (1 : Fin 2) = 0 :=
  (by decide +kernel : ∀ t : Fin grid0.N, _)
/-- Window 11 moves one block of rows per point and stays on the one block of columns. -/
theorem idx_11 : ∀ t : Fin cfg0.N, win0_11.index t (0 : Fin 2) = t.val ∧ win0_11.index t (1 : Fin 2) = 0 :=
  (by decide +kernel : ∀ t : Fin grid0.N, _)
/-- Window 12 moves one block of rows per point and stays on the one block of columns. -/
theorem idx_12 : ∀ t : Fin cfg0.N, win0_12.index t (0 : Fin 2) = t.val ∧ win0_12.index t (1 : Fin 2) = 0 :=
  (by decide +kernel : ∀ t : Fin grid0.N, _)
/-- Window 13 moves one block of rows per point and stays on the one block of columns. -/
theorem idx_13 : ∀ t : Fin cfg0.N, win0_13.index t (0 : Fin 2) = t.val ∧ win0_13.index t (1 : Fin 2) = 0 :=
  (by decide +kernel : ∀ t : Fin grid0.N, _)
/-- Window 3 holds its whole array at every point. -/
theorem idx_3 : ∀ t : Fin cfg0.N, win0_3.index t (0 : Fin 2) = 0 ∧ win0_3.index t (1 : Fin 2) = 0 :=
  (by decide +kernel : ∀ t : Fin grid0.N, _)
/-- Window 4 holds its whole array at every point. -/
theorem idx_4 : ∀ t : Fin cfg0.N, win0_4.index t (0 : Fin 2) = 0 ∧ win0_4.index t (1 : Fin 2) = 0 :=
  (by decide +kernel : ∀ t : Fin grid0.N, _)
/-- Window 5 holds its whole array at every point. -/
theorem idx_5 : ∀ t : Fin cfg0.N, win0_5.index t (0 : Fin 2) = 0 ∧ win0_5.index t (1 : Fin 2) = 0 :=
  (by decide +kernel : ∀ t : Fin grid0.N, _)
/-- Window 6 holds its whole array at every point. -/
theorem idx_6 : ∀ t : Fin cfg0.N, win0_6.index t (0 : Fin 2) = 0 ∧ win0_6.index t (1 : Fin 2) = 0 :=
  (by decide +kernel : ∀ t : Fin grid0.N, _)
/-- Window 7 holds its whole array at every point. -/
theorem idx_7 : ∀ t : Fin cfg0.N, win0_7.index t (0 : Fin 2) = 0 ∧ win0_7.index t (1 : Fin 2) = 0 :=
  (by decide +kernel : ∀ t : Fin grid0.N, _)
/-- Window 8 holds its whole array at every point. -/
theorem idx_8 : ∀ t : Fin cfg0.N, win0_8.index t (0 : Fin 2) = 0 ∧ win0_8.index t (1 : Fin 2) = 0 :=
  (by decide +kernel : ∀ t : Fin grid0.N, _)
/-- Window 9 holds its whole array at every point. -/
theorem idx_9 : ∀ t : Fin cfg0.N, win0_9.index t (0 : Fin 2) = 0 ∧ win0_9.index t (1 : Fin 2) = 0 :=
  (by decide +kernel : ∀ t : Fin grid0.N, _)
/-- Window 10 holds its whole array at every point. -/
theorem idx_10 : ∀ t : Fin cfg0.N, win0_10.index t (0 : Fin 2) = 0 ∧ win0_10.index t (1 : Fin 2) = 0 :=
  (by decide +kernel : ∀ t : Fin grid0.N, _)

/-! ## Each input block, read where the point's rows say -/

/-- Row `p` of window 0's block at point `t` is merged row `512·t + p` of its array. -/
theorem rows0 (c : Dev nD) (t : Fin cfg0.N) (p : Fin 512) (k : Fin 1024) (r : Fin 16384) (hr : r.val = t.val * 512 + p.val) :
    iblk m c 0 t (ix2 p k) = V m c main_v8 (ix2 r k) := by
  obtain ⟨e0, e1⟩ := idx_0 t
  show V m c main_v8 (((cfg0.win 0).blk t).view.emb (ix2 p k)) = _
  refine congrArg (V m c main_v8) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega
/-- Row `p` of window 1's block at point `t` is merged row `512·t + p` of its array. -/
theorem rows1 (c : Dev nD) (t : Fin cfg0.N) (p : Fin 512) (k : Fin 1024) (r : Fin 16384) (hr : r.val = t.val * 512 + p.val) :
    iblk m c 1 t (ix2 p k) = V m c main_v9 (ix2 r k) := by
  obtain ⟨e0, e1⟩ := idx_1 t
  show V m c main_v9 (((cfg0.win 1).blk t).view.emb (ix2 p k)) = _
  refine congrArg (V m c main_v9) (funext fun a => Fin.ext ?_)
  match a with
  | ⟨0, _⟩ => show win0_1.index t (0 : Fin 2) * 512 + 1 * p.val = r.val; omega
  | ⟨1, _⟩ => show win0_1.index t (1 : Fin 2) * 1024 + 1 * k.val = k.val; omega
/-- Row `p` of window 2's block at point `t` is merged row `512·t + p` of its array. -/
theorem rows2 (c : Dev nD) (t : Fin cfg0.N) (p : Fin 512) (k : Fin 1024) (r : Fin 16384) (hr : r.val = t.val * 512 + p.val) :
    iblk m c 2 t (ix2 p k) = V m c main_v10 (ix2 r k) := by
  obtain ⟨e0, e1⟩ := idx_2 t
  show V m c main_v10 (((cfg0.win 2).blk t).view.emb (ix2 p k)) = _
  refine congrArg (V m c main_v10) (funext fun a => Fin.ext ?_)
  match a with
  | ⟨0, _⟩ => show win0_2.index t (0 : Fin 2) * 512 + 1 * p.val = r.val; omega
  | ⟨1, _⟩ => show win0_2.index t (1 : Fin 2) * 1024 + 1 * k.val = k.val; omega
/-- Window 3's block is its whole weight matrix. -/
theorem whole3 (c : Dev nD) (t : Fin cfg0.N) (j : S1024x2048.Idx) : iblk m c 3 t j = V m c main_v0 j := by
  obtain ⟨e0, e1⟩ := idx_3 t
  show V m c main_v0 (((cfg0.win 3).blk t).view.emb j) = _
  refine congrArg (V m c main_v0) (funext fun a => Fin.ext ?_)
  match a with
  | ⟨0, _⟩ => show win0_3.index t (0 : Fin 2) * 1024 + 1 * (j 0).val = (j 0).val; omega
  | ⟨1, _⟩ => show win0_3.index t (1 : Fin 2) * 2048 + 1 * (j 1).val = (j 1).val; omega
/-- Window 4's block is its whole weight matrix. -/
theorem whole4 (c : Dev nD) (t : Fin cfg0.N) (j : S1024x2048.Idx) : iblk m c 4 t j = V m c main_v1 j := by
  obtain ⟨e0, e1⟩ := idx_4 t
  show V m c main_v1 (((cfg0.win 4).blk t).view.emb j) = _
  refine congrArg (V m c main_v1) (funext fun a => Fin.ext ?_)
  match a with
  | ⟨0, _⟩ => show win0_4.index t (0 : Fin 2) * 1024 + 1 * (j 0).val = (j 0).val; omega
  | ⟨1, _⟩ => show win0_4.index t (1 : Fin 2) * 2048 + 1 * (j 1).val = (j 1).val; omega
/-- Window 5's block is its whole weight matrix. -/
theorem whole5 (c : Dev nD) (t : Fin cfg0.N) (j : S1024x2048.Idx) : iblk m c 5 t j = V m c main_v2 j := by
  obtain ⟨e0, e1⟩ := idx_5 t
  show V m c main_v2 (((cfg0.win 5).blk t).view.emb j) = _
  refine congrArg (V m c main_v2) (funext fun a => Fin.ext ?_)
  match a with
  | ⟨0, _⟩ => show win0_5.index t (0 : Fin 2) * 1024 + 1 * (j 0).val = (j 0).val; omega
  | ⟨1, _⟩ => show win0_5.index t (1 : Fin 2) * 2048 + 1 * (j 1).val = (j 1).val; omega
/-- Window 6's block is its whole weight matrix. -/
theorem whole6 (c : Dev nD) (t : Fin cfg0.N) (j : S1024x2048.Idx) : iblk m c 6 t j = V m c main_v3 j := by
  obtain ⟨e0, e1⟩ := idx_6 t
  show V m c main_v3 (((cfg0.win 6).blk t).view.emb j) = _
  refine congrArg (V m c main_v3) (funext fun a => Fin.ext ?_)
  match a with
  | ⟨0, _⟩ => show win0_6.index t (0 : Fin 2) * 1024 + 1 * (j 0).val = (j 0).val; omega
  | ⟨1, _⟩ => show win0_6.index t (1 : Fin 2) * 2048 + 1 * (j 1).val = (j 1).val; omega
/-- Window 7's block is its whole one-row bias. -/
theorem whole7 (c : Dev nD) (t : Fin cfg0.N) (j : S1x1024.Idx) : iblk m c 7 t j = V m c main_v4 j := by
  obtain ⟨e0, e1⟩ := idx_7 t
  show V m c main_v4 (((cfg0.win 7).blk t).view.emb j) = _
  refine congrArg (V m c main_v4) (funext fun a => Fin.ext ?_)
  match a with
  | ⟨0, _⟩ => show win0_7.index t (0 : Fin 2) * 1 + 1 * (j 0).val = (j 0).val; omega
  | ⟨1, _⟩ => show win0_7.index t (1 : Fin 2) * 1024 + 1 * (j 1).val = (j 1).val; omega
/-- Window 8's block is its whole one-row bias. -/
theorem whole8 (c : Dev nD) (t : Fin cfg0.N) (j : S1x1024.Idx) : iblk m c 8 t j = V m c main_v5 j := by
  obtain ⟨e0, e1⟩ := idx_8 t
  show V m c main_v5 (((cfg0.win 8).blk t).view.emb j) = _
  refine congrArg (V m c main_v5) (funext fun a => Fin.ext ?_)
  match a with
  | ⟨0, _⟩ => show win0_8.index t (0 : Fin 2) * 1 + 1 * (j 0).val = (j 0).val; omega
  | ⟨1, _⟩ => show win0_8.index t (1 : Fin 2) * 1024 + 1 * (j 1).val = (j 1).val; omega
/-- Window 9's block is its whole one-row bias. -/
theorem whole9 (c : Dev nD) (t : Fin cfg0.N) (j : S1x1024.Idx) : iblk m c 9 t j = V m c main_v6 j := by
  obtain ⟨e0, e1⟩ := idx_9 t
  show V m c main_v6 (((cfg0.win 9).blk t).view.emb j) = _
  refine congrArg (V m c main_v6) (funext fun a => Fin.ext ?_)
  match a with
  | ⟨0, _⟩ => show win0_9.index t (0 : Fin 2) * 1 + 1 * (j 0).val = (j 0).val; omega
  | ⟨1, _⟩ => show win0_9.index t (1 : Fin 2) * 1024 + 1 * (j 1).val = (j 1).val; omega
/-- Window 10's block is its whole one-row bias. -/
theorem whole10 (c : Dev nD) (t : Fin cfg0.N) (j : S1x1024.Idx) : iblk m c 10 t j = V m c main_v7 j := by
  obtain ⟨e0, e1⟩ := idx_10 t
  show V m c main_v7 (((cfg0.win 10).blk t).view.emb j) = _
  refine congrArg (V m c main_v7) (funext fun a => Fin.ext ?_)
  match a with
  | ⟨0, _⟩ => show win0_10.index t (0 : Fin 2) * 1 + 1 * (j 0).val = (j 0).val; omega
  | ⟨1, _⟩ => show win0_10.index t (1 : Fin 2) * 1024 + 1 * (j 1).val = (j 1).val; omega

/-! ## One gate's pre-activation on a block is the gate's on the merged arrays -/

theorem pre_f (c : Dev nD) (t : Fin cfg0.N) (p : Fin 512) (q : Fin 1024) (r : Fin 16384) (hr : r.val = t.val * 512 + p.val) :
    blkPre (iblk m c 0 t) (iblk m c 1 t) (iblk m c 3 t) (iblk m c 7 t) p q
      = preFlat (V m c main_v8) (V m c main_v9) (V m c main_v0) (V m c main_v4) r q :=
  gateSplit_congr (fun k => rows0 m c t p k r hr) (fun k => rows1 m c t p k r hr) (fun k => whole3 m c t (ix2 q k))
    (whole7 m c t (ix2 (0 : Fin 1) q))
theorem pre_i (c : Dev nD) (t : Fin cfg0.N) (p : Fin 512) (q : Fin 1024) (r : Fin 16384) (hr : r.val = t.val * 512 + p.val) :
    blkPre (iblk m c 0 t) (iblk m c 1 t) (iblk m c 4 t) (iblk m c 8 t) p q
      = preFlat (V m c main_v8) (V m c main_v9) (V m c main_v1) (V m c main_v5) r q :=
  gateSplit_congr (fun k => rows0 m c t p k r hr) (fun k => rows1 m c t p k r hr) (fun k => whole4 m c t (ix2 q k))
    (whole8 m c t (ix2 (0 : Fin 1) q))
theorem pre_g (c : Dev nD) (t : Fin cfg0.N) (p : Fin 512) (q : Fin 1024) (r : Fin 16384) (hr : r.val = t.val * 512 + p.val) :
    blkPre (iblk m c 0 t) (iblk m c 1 t) (iblk m c 5 t) (iblk m c 9 t) p q
      = preFlat (V m c main_v8) (V m c main_v9) (V m c main_v2) (V m c main_v6) r q :=
  gateSplit_congr (fun k => rows0 m c t p k r hr) (fun k => rows1 m c t p k r hr) (fun k => whole5 m c t (ix2 q k))
    (whole9 m c t (ix2 (0 : Fin 1) q))
theorem pre_o (c : Dev nD) (t : Fin cfg0.N) (p : Fin 512) (q : Fin 1024) (r : Fin 16384) (hr : r.val = t.val * 512 + p.val) :
    blkPre (iblk m c 0 t) (iblk m c 1 t) (iblk m c 6 t) (iblk m c 10 t) p q
      = preFlat (V m c main_v8) (V m c main_v9) (V m c main_v3) (V m c main_v7) r q :=
  gateSplit_congr (fun k => rows0 m c t p k r hr) (fun k => rows1 m c t p k r hr) (fun k => whole6 m c t (ix2 q k))
    (whole10 m c t (ix2 (0 : Fin 1) q))

/-! ## The three output arrays as functions of the arrays the region finds -/

/-- The output gate over all merged rows. -/
def arrO (c : Dev nD) : S16384x1024.Idx → EReal :=
  flatO (V m c main_v8) (V m c main_v9) (V m c main_v3) (V m c main_v7)
/-- The new cell over all merged rows. -/
def arrC (c : Dev nD) : S16384x1024.Idx → EReal :=
  flatC (V m c main_v8) (V m c main_v9) (V m c main_v10) (V m c main_v0) (V m c main_v4) (V m c main_v1) (V m c main_v5)
    (V m c main_v2) (V m c main_v6)
/-- The new state over all merged rows. -/
def arrA (c : Dev nD) : S16384x1024.Idx → EReal :=
  flatA (V m c main_v8) (V m c main_v9) (V m c main_v10) (V m c main_v0) (V m c main_v4) (V m c main_v1) (V m c main_v5)
    (V m c main_v2) (V m c main_v6) (V m c main_v3) (V m c main_v7)

/-- Entry (p, q) of output window 11's block at point `t` sits at merged row `512·t + p`. -/
theorem out_row11 (t : Fin cfg0.N) (p : Fin 512) (q : Fin 1024) :
    ∃ r : Fin 16384, r.val = t.val * 512 + p.val ∧ ((cfg0.win 11).blk t).view.emb (ix2 p q) = ix2 r q := by
  obtain ⟨e0, e1⟩ := idx_11 t
  have ht := point_lt t
  refine ⟨⟨t.val * 512 + p.val, by have := p.isLt; omega⟩, rfl, funext fun a => Fin.ext ?_⟩
  match a with
  | ⟨0, _⟩ => show win0_11.index t (0 : Fin 2) * 512 + 1 * p.val = t.val * 512 + p.val; omega
  | ⟨1, _⟩ => show win0_11.index t (1 : Fin 2) * 1024 + 1 * q.val = q.val; omega
/-- Entry (p, q) of output window 12's block at point `t` sits at merged row `512·t + p`. -/
theorem out_row12 (t : Fin cfg0.N) (p : Fin 512) (q : Fin 1024) :
    ∃ r : Fin 16384, r.val = t.val * 512 + p.val ∧ ((cfg0.win 12).blk t).view.emb (ix2 p q) = ix2 r q := by
  obtain ⟨e0, e1⟩ := idx_12 t
  have ht := point_lt t
  refine ⟨⟨t.val * 512 + p.val, by have := p.isLt; omega⟩, rfl, funext fun a => Fin.ext ?_⟩
  match a with
  | ⟨0, _⟩ => show win0_12.index t (0 : Fin 2) * 512 + 1 * p.val = t.val * 512 + p.val; omega
  | ⟨1, _⟩ => show win0_12.index t (1 : Fin 2) * 1024 + 1 * q.val = q.val; omega
/-- Entry (p, q) of output window 13's block at point `t` sits at merged row `512·t + p`. -/
theorem out_row13 (t : Fin cfg0.N) (p : Fin 512) (q : Fin 1024) :
    ∃ r : Fin 16384, r.val = t.val * 512 + p.val ∧ ((cfg0.win 13).blk t).view.emb (ix2 p q) = ix2 r q := by
  obtain ⟨e0, e1⟩ := idx_13 t
  have ht := point_lt t
  refine ⟨⟨t.val * 512 + p.val, by have := p.isLt; omega⟩, rfl, funext fun a => Fin.ext ?_⟩
  match a with
  | ⟨0, _⟩ => show win0_13.index t (0 : Fin 2) * 512 + 1 * p.val = t.val * 512 + p.val; omega
  | ⟨1, _⟩ => show win0_13.index t (1 : Fin 2) * 1024 + 1 * q.val = q.val; omega

/-! ## What a point writes back -/

/-- Point `t` writes back block `t` of the output gate. -/
theorem flushed11_eq (c : Dev nD) (t : Fin cfg0.N) :
    (dats m 0 c).flushed 11 t = ((cfg0.win 11).blk t).view.read (Elt Ideal) (arrO m c) := by
  show (cfg0.win 11).cut (grid0.coords t) ((dats m 0 c).after 11 t) = _
  rw [after0_11]
  unfold out0_11
  rw [View.canon_unit_zero hz]
  simp only [View.ld_unit_zero (S := S512x1024) hz, View.ld_unit_zero (S := S1024x2048) hz, View.ld_unit_zero (S := S1x1024) hz]
  funext j
  obtain ⟨p, q, rfl⟩ : ∃ (p : Fin 512) (q : Fin 1024), j = ix2 p q := ⟨j 0, j 1, eq_ix2 j⟩
  obtain ⟨r, hr, hj⟩ := out_row11 t p q
  show k0_pay1 (F := Ideal) (k0_pay4 (iblk m c 0 t)) (k0_pay5 (iblk m c 1 t)) (iblk m c 6 t) (iblk m c 10 t) (ix2 p q)
    = arrO m c (((cfg0.win 11).blk t).view.emb (ix2 p q))
  rw [hj]
  exact (blockO (iblk m c 0 t) (iblk m c 1 t) (iblk m c 6 t) (iblk m c 10 t) p q).trans
    (congrArg Ideal.logistic (pre_o m c t p q r hr))

/-- Point `t` writes back block `t` of the new cell. -/
theorem flushed13_eq (c : Dev nD) (t : Fin cfg0.N) :
    (dats m 0 c).flushed 13 t = ((cfg0.win 13).blk t).view.read (Elt Ideal) (arrC m c) := by
  show (cfg0.win 13).cut (grid0.coords t) ((dats m 0 c).after 13 t) = _
  rw [after0_13]
  unfold out0_13
  rw [View.canon_unit_zero hz]
  simp only [View.ld_unit_zero (S := S512x1024) hz, View.ld_unit_zero (S := S1024x2048) hz, View.ld_unit_zero (S := S1x1024) hz]
  funext j
  obtain ⟨p, q, rfl⟩ : ∃ (p : Fin 512) (q : Fin 1024), j = ix2 p q := ⟨j 0, j 1, eq_ix2 j⟩
  obtain ⟨r, hr, hj⟩ := out_row13 t p q
  show k0_pay2 (F := Ideal) (k0_pay6 (iblk m c 0 t) (iblk m c 1 t) (iblk m c 3 t) (iblk m c 7 t))
      (k0_pay7 (iblk m c 0 t) (iblk m c 1 t) (iblk m c 4 t) (iblk m c 8 t)) (k0_pay8 (iblk m c 0 t) (iblk m c 1 t) (iblk m c 5 t))
      (iblk m c 9 t) (iblk m c 2 t) (ix2 p q)
    = arrC m c (((cfg0.win 13).blk t).view.emb (ix2 p q))
  rw [hj]
  refine (blockC (iblk m c 0 t) (iblk m c 1 t) (iblk m c 2 t) (iblk m c 3 t) (iblk m c 4 t) (iblk m c 5 t)
    (iblk m c 7 t) (iblk m c 8 t) (iblk m c 9 t) p q).trans ?_
  rw [pre_f m c t p q r hr, pre_i m c t p q r hr, pre_g m c t p q r hr, rows2 m c t p q r hr]
  rfl

/-- Point `t` writes back block `t` of the new state. -/
theorem flushed12_eq (c : Dev nD) (t : Fin cfg0.N) :
    (dats m 0 c).flushed 12 t = ((cfg0.win 12).blk t).view.read (Elt Ideal) (arrA m c) := by
  show (cfg0.win 12).cut (grid0.coords t) ((dats m 0 c).after 12 t) = _
  rw [after0_12]
  unfold out0_12
  rw [View.canon_unit_zero hz]
  simp only [View.ld_unit_zero (S := S512x1024) hz, View.ld_unit_zero (S := S1024x2048) hz, View.ld_unit_zero (S := S1x1024) hz]
  funext j
  obtain ⟨p, q, rfl⟩ : ∃ (p : Fin 512) (q : Fin 1024), j = ix2 p q := ⟨j 0, j 1, eq_ix2 j⟩
  obtain ⟨r, hr, hj⟩ := out_row12 t p q
  show k0_pay3 (F := Ideal) (k0_pay4 (iblk m c 0 t)) (k0_pay5 (iblk m c 1 t))
      (k0_pay6 (iblk m c 0 t) (iblk m c 1 t) (iblk m c 3 t) (iblk m c 7 t))
      (k0_pay7 (iblk m c 0 t) (iblk m c 1 t) (iblk m c 4 t) (iblk m c 8 t)) (k0_pay8 (iblk m c 0 t) (iblk m c 1 t) (iblk m c 5 t))
      (iblk m c 9 t) (iblk m c 6 t) (iblk m c 10 t) (iblk m c 2 t) (ix2 p q)
    = arrA m c (((cfg0.win 12).blk t).view.emb (ix2 p q))
  rw [hj]
  refine (blockA (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  rw [pre_f m c t p q r hr, pre_i m c t p q r hr, pre_g m c t p q r hr, pre_o m c t p q r hr, rows2 m c t p q r hr]
  rfl

/-! ## The row ranges cover every index -/

/-- An index is in point `t`'s block of window 11 iff each coordinate is in the block's range. -/
theorem mem_blk11 (t : Fin cfg0.N) (i : S16384x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v11_0).slice (win0_11.rect t)).set ↔ _
  rw [View.set_slice_whole, Rect.mem_set_unit]
  exact Iff.rfl

/-- Row `i₀` lies in the range of point ⌊i₀ / 512⌋. -/
theorem cover11 (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  have hlt : (i 0).val / 512 < cfg0.N := lt_of_lt_of_eq (by omega : (i 0).val / 512 < 32) N_0.symm
  refine ⟨⟨(i 0).val / 512, hlt⟩, flush0_11 _, ?_⟩
  rw [mem_blk11]
  obtain ⟨e0, e1⟩ := idx_11 ⟨(i 0).val / 512, hlt⟩
  have tv : (⟨(i 0).val / 512, hlt⟩ : Fin cfg0.N).val = (i 0).val / 512 := rfl
  intro a
  match a with
  | ⟨0, _⟩ =>
    show win0_11.index ⟨(i 0).val / 512, hlt⟩ (0 : Fin 2) * 512 ≤ (i 0).val
      ∧ (i 0).val < win0_11.index ⟨(i 0).val / 512, hlt⟩ (0 : Fin 2) * 512 + 512
    omega
  | ⟨1, _⟩ =>
    show win0_11.index ⟨(i 0).val / 512, hlt⟩ (1 : Fin 2) * 1024 ≤ (i 1).val
      ∧ (i 1).val < win0_11.index ⟨(i 0).val / 512, hlt⟩ (1 : Fin 2) * 1024 + 1024
    omega

/-- An index is in point `t`'s block of window 12 iff each coordinate is in the block's range. -/
theorem mem_blk12 (t : Fin cfg0.N) (i : S16384x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v11_1).slice (win0_12.rect t)).set ↔ _
  rw [View.set_slice_whole, Rect.mem_set_unit]
  exact Iff.rfl

/-- Row `i₀` lies in the range of point ⌊i₀ / 512⌋. -/
theorem cover12 (i : S16384x1024.Idx) :
    ∃ t : Fin cfg0.N, (cfg0.win 12).flush t = true ∧ i ∈ ((cfg0.win 12).blk t).view.set := by
  have hi0 : (i 0).val < 16384 := (i 0).isLt
  have hi1 : (i 1).val < 1024 := (i 1).isLt
  have hlt : (i 0).val / 512 < cfg0.N := lt_of_lt_of_eq (by omega : (i 0).val / 512 < 32) N_0.symm
  refine ⟨⟨(i 0).val / 512, hlt⟩, flush0_12 _, ?_⟩
  rw [mem_blk12]
  obtain ⟨e0, e1⟩ := idx_12 ⟨(i 0).val / 512, hlt⟩
  have tv : (⟨(i 0).val / 512, hlt⟩ : Fin cfg0.N).val = (i 0).val / 512 := rfl
  intro a
  match a with
  | ⟨0, _⟩ =>
    show win0_12.index ⟨(i 0).val / 512, hlt⟩ (0 : Fin 2) * 512 ≤ (i 0).val
      ∧ (i 0).val < win0_12.index ⟨(i 0).val / 512, hlt⟩ (0 : Fin 2) * 512 + 512
    omega
  | ⟨1, _⟩ =>
    show win0_12.index ⟨(i 0).val / 512, hlt⟩ (1 : Fin 2) * 1024 ≤ (i 1).val
      ∧ (i 1).val < win0_12.index ⟨(i 0).val / 512, hlt⟩ (1 : Fin 2) * 1024 + 1024
    omega

/-- An index is in point `t`'s block of window 13 iff each coordinate is in the block's range. -/
theorem mem_blk13 (t : Fin cfg0.N) (i : S16384x1024.Idx) :
    i ∈ ((cfg0.win 13).blk t).view.set ↔ ∀ a : Fin 2, win0_13.index t a * S512x1024.size a ≤ (i a).val
      ∧ (i a).val < win0_13.index t a * S512x1024.size a + S512x1024.size a := by
  show i ∈ ((View.whole main_v11_2).slice (win0_13.rect t)).set ↔ _
  rw [View.set_slice_whole, Rect.mem_set_unit]
  exact Iff.rfl

/-- Row `i₀` lies in the range of point ⌊i₀ / 512⌋. -/
theorem cover13 (i : S16384x1024.Idx) :
    ∃ t : Fin cfg0.N, (cfg0.win 13).flush t = true ∧ i ∈ ((cfg0.win 13).blk t).view.set := by
  have hi0 : (i 0).val < 16384 := (i 0).isLt
  have hi1 : (i 1).val < 1024 := (i 1).isLt
  have hlt : (i 0).val / 512 < cfg0.N := lt_of_lt_of_eq (by omega : (i 0).val / 512 < 32) N_0.symm
  refine ⟨⟨(i 0).val / 512, hlt⟩, flush0_13 _, ?_⟩
  rw [mem_blk13]
  obtain ⟨e0, e1⟩ := idx_13 ⟨(i 0).val / 512, hlt⟩
  have tv : (⟨(i 0).val / 512, hlt⟩ : Fin cfg0.N).val = (i 0).val / 512 := rfl
  intro a
  match a with
  | ⟨0, _⟩ =>
    show win0_13.index ⟨(i 0).val / 512, hlt⟩ (0 : Fin 2) * 512 ≤ (i 0).val
      ∧ (i 0).val < win0_13.index ⟨(i 0).val / 512, hlt⟩ (0 : Fin 2) * 512 + 512
    omega
  | ⟨1, _⟩ =>
    show win0_13.index ⟨(i 0).val / 512, hlt⟩ (1 : Fin 2) * 1024 ≤ (i 1).val
      ∧ (i 1).val < win0_13.index ⟨(i 0).val / 512, hlt⟩ (1 : Fin 2) * 1024 + 1024
    omega

/-! ## The arrays after the region -/

theorem final11 (c : Dev nD) : (dats m 0 c).arrAt 11 cfg0.N = arrO m c :=
  (dats m 0 c).arrAt_eq_of_cover 11 (arrO m c) (fun t _ => flushed11_eq m c t) cover11
theorem final12 (c : Dev nD) : (dats m 0 c).arrAt 12 cfg0.N = arrA m c :=
  (dats m 0 c).arrAt_eq_of_cover 12 (arrA m c) (fun t _ => flushed12_eq m c t) cover12
theorem final13 (c : Dev nD) : (dats m 0 c).arrAt 13 cfg0.N = arrC m c :=
  (dats m 0 c).arrAt_eq_of_cover 13 (arrC m c) (fun t _ => flushed13_eq m c t) cover13

end Cert.KernelIdeal.Arrays

end
-- ==== Proof.KernelWhole.lean ====
/-
  The cell's kernel program, whole.

  Before the region the host lines narrow the four weights (no change on the extended reals), lay each bias as a
  one-row array, and merge the two leading axes of the state, the input and the old cell into 16384 rows. So the arrays
  the region finds are the arguments in the merged layout, and by the block-by-block account the three output arrays
  after the region are the cell's three functions over the merged rows. After the region the host lines split the
  16384 rows back into [8, 2048]: row β·2048 + s goes to (β, s). Hence the three results are the cell's three functions
  of the arguments, and no argument is written.
-/
import proofs.«158978_j31104153158088_2_alg».proof.Proof.KernelArrays
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.LstmCell Cert.LibMergeRows Cert.KernelIdeal.Arrays Idealize.ShloMosaic.StableHlo
open Idealize.ShloMosaic.Pipeline (Dat)

variable (m : (ℓ : Loc nD τ sig) → Buf (Elt Ideal) ℓ) (ρ : Dev nD → PrngReg)

/-! ## What the region finds -/

theorem found_a (c : Dev nD) : (V m c main_v8 : S16384x1024.Idx → EReal)
    = shapeCast S16384x1024 (m ((c : Thread nD τ).loc main_arg1)) shapeCasts_S8x2048x1024_S16384x1024 := by
  show StableHlo.after hostOps0 (fun b => m (c, b)) (Proc.devRef .tc main_v8) = _
  after_results
  rfl
theorem merges_a (c : Dev nD) : Merges (V m c main_v8) (m ((c : Thread nD τ).loc main_arg1)) := fun β s k =>
  (congrFun (found_a m c) _).trans (shapeCast_abc_rc_apply _ shapeCasts_S8x2048x1024_S16384x1024 rows_eq β s k)
theorem found_x (c : Dev nD) : (V m c main_v9 : S16384x1024.Idx → EReal)
    = shapeCast S16384x1024 (m ((c : Thread nD τ).loc main_arg0)) shapeCasts_S8x2048x1024_S16384x1024 := by
  show StableHlo.after hostOps0 (fun b => m (c, b)) (Proc.devRef .tc main_v9) = _
  after_results
  rfl
theorem merges_x (c : Dev nD) : Merges (V m c main_v9) (m ((c : Thread nD τ).loc main_arg0)) := fun β s k =>
  (congrFun (found_x m c) _).trans (shapeCast_abc_rc_apply _ shapeCasts_S8x2048x1024_S16384x1024 rows_eq β s k)
theorem found_c (c : Dev nD) : (V m c main_v10 : S16384x1024.Idx → EReal)
    = shapeCast S16384x1024 (m ((c : Thread nD τ).loc main_arg2)) shapeCasts_S8x2048x1024_S16384x1024 := by
  show StableHlo.after hostOps0 (fun b => m (c, b)) (Proc.devRef .tc main_v10) = _
  after_results
  rfl
theorem merges_c (c : Dev nD) : Merges (V m c main_v10) (m ((c : Thread nD τ).loc main_arg2)) := fun β s k =>
  (congrFun (found_c m c) _).trans (shapeCast_abc_rc_apply _ shapeCasts_S8x2048x1024_S16384x1024 rows_eq β s k)
theorem found_wf (c : Dev nD) : (V m c main_v0 : S1024x2048.Idx → EReal) = m ((c : Thread nD τ).loc main_arg3) := by
  show StableHlo.after hostOps0 (fun b => m (c, b)) (Proc.devRef .tc main_v0) = _
  after_results
  rfl
theorem found_wi (c : Dev nD) : (V m c main_v1 : S1024x2048.Idx → EReal) = m ((c : Thread nD τ).loc main_arg5) := by
  show StableHlo.after hostOps0 (fun b => m (c, b)) (Proc.devRef .tc main_v1) = _
  after_results
  rfl
theorem found_wc (c : Dev nD) : (V m c main_v2 : S1024x2048.Idx → EReal) = m ((c : Thread nD τ).loc main_arg7) := by
  show StableHlo.after hostOps0 (fun b => m (c, b)) (Proc.devRef .tc main_v2) = _
  after_results
  rfl
theorem found_wo (c : Dev nD) : (V m c main_v3 : S1024x2048.Idx → EReal) = m ((c : Thread nD τ).loc main_arg9) := by
  show StableHlo.after hostOps0 (fun b => m (c, b)) (Proc.devRef .tc main_v3) = _
  after_results
  rfl
theorem found_bf (c : Dev nD) : (V m c main_v4 : S1x1024.Idx → EReal)
    = shapeCast S1x1024 (m ((c : Thread nD τ).loc main_arg4)) shapeCasts_S1024_S1x1024 := by
  show StableHlo.after hostOps0 (fun b => m (c, b)) (Proc.devRef .tc main_v4) = _
  after_results
  rfl
theorem rows_bf (c : Dev nD) : Rows (V m c main_v4) (m ((c : Thread nD τ).loc main_arg4)) := fun h =>
  (congrFun (found_bf m c) _).trans (shapeCast_a_1a_apply _ shapeCasts_S1024_S1x1024 (0 : Fin 1) h)
theorem found_bi (c : Dev nD) : (V m c main_v5 : S1x1024.Idx → EReal)
    = shapeCast S1x1024 (m ((c : Thread nD τ).loc main_arg6)) shapeCasts_S1024_S1x1024 := by
  show StableHlo.after hostOps0 (fun b => m (c, b)) (Proc.devRef .tc main_v5) = _
  after_results
  rfl
theorem rows_bi (c : Dev nD) : Rows (V m c main_v5) (m ((c : Thread nD τ).loc main_arg6)) := fun h =>
  (congrFun (found_bi m c) _).trans (shapeCast_a_1a_apply _ shapeCasts_S1024_S1x1024 (0 : Fin 1) h)
theorem found_bc (c : Dev nD) : (V m c main_v6 : S1x1024.Idx → EReal)
    = shapeCast S1x1024 (m ((c : Thread nD τ).loc main_arg8)) shapeCasts_S1024_S1x1024 := by
  show StableHlo.after hostOps0 (fun b => m (c, b)) (Proc.devRef .tc main_v6) = _
  after_results
  rfl
theorem rows_bc (c : Dev nD) : Rows (V m c main_v6) (m ((c : Thread nD τ).loc main_arg8)) := fun h =>
  (congrFun (found_bc m c) _).trans (shapeCast_a_1a_apply _ shapeCasts_S1024_S1x1024 (0 : Fin 1) h)
theorem found_bo (c : Dev nD) : (V m c main_v7 : S1x1024.Idx → EReal)
    = shapeCast S1x1024 (m ((c : Thread nD τ).loc main_arg10)) shapeCasts_S1024_S1x1024 := by
  show StableHlo.after hostOps0 (fun b => m (c, b)) (Proc.devRef .tc main_v7) = _
  after_results
  rfl
theorem rows_bo (c : Dev nD) : Rows (V m c main_v7) (m ((c : Thread nD τ).loc main_arg10)) := fun h =>
  (congrFun (found_bo m c) _).trans (shapeCast_a_1a_apply _ shapeCasts_S1024_S1x1024 (0 : Fin 1) h)

/-! ## The output arrays over the merged rows, as functions of the arguments -/

theorem arrO_at (c : Dev nD) (β : Fin 8) (s : Fin 2048) (h : Fin 1024) :
    arrO m c (ix2 (row β s) h) = outO (m ((c : Thread nD τ).loc main_arg1)) (m ((c : Thread nD τ).loc main_arg0)) (m ((c : Thread nD τ).loc main_arg9)) (m ((c : Thread nD τ).loc main_arg10)) (ix3 β s h) := by
  unfold arrO
  rw [found_wo m c]
  exact flatO_eq (merges_a m c) (merges_x m c) (rows_bo m c) β s h

theorem arrC_at (c : Dev nD) (β : Fin 8) (s : Fin 2048) (h : Fin 1024) :
    arrC m c (ix2 (row β s) h) = outC (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 β s h) := by
  unfold arrC
  rw [found_wf m c, found_wi m c, found_wc m c]
  exact flatC_eq (merges_a m c) (merges_x m c) (merges_c m c) (rows_bf m c) (rows_bi m c) (rows_bc m c) β s h

theorem arrA_at (c : Dev nD) (β : Fin 8) (s : Fin 2048) (h : Fin 1024) :
    arrA m c (ix2 (row β s) h)
      = outA (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 β s h) := by
  unfold arrA
  rw [found_wf m c, found_wi m c, found_wc m c, found_wo m c]
  exact flatA_eq (merges_a m c) (merges_x m c) (merges_c m c) (rows_bf m c) (rows_bi m c) (rows_bc m c) (rows_bo m c) β s h

/-! ## The host lines after the region -/

/-- The region leaves `arrO` in output array 11, also as the host lines after it see it. -/
theorem left_o (c : Dev nD) :
    Pipeline.withArrays (cfgs 0).spec c (V0 m c) (fun w => (dats m 0 c).arrAt w (cfgs 0).N) (Proc.devRef .tc main_v11_0) = arrO m c :=
  (Pipeline.withArrays_arr spec0 launch0.win.arr_inj c _ _ 11).trans (final11 m c)

theorem tail_o (c : Dev nD) : Pipeline.afterTail₀ cfgs (dats m) 0 (V0 m) [hostOps1] c main_v12
    = (shapeCast S8x2048x1024 (arrO m c) shapeCasts_S16384x1024_S8x2048x1024 : S8x2048x1024.Idx → EReal) := by
  unfold Pipeline.afterTail₀
  show StableHlo.after hostOps1 _ (Proc.devRef .tc main_v12) = _
  after_results
  rw [left_o m c]
  rfl

/-- The region leaves `arrA` in output array 12, also as the host lines after it see it. -/
theorem left_a (c : Dev nD) :
    Pipeline.withArrays (cfgs 0).spec c (V0 m c) (fun w => (dats m 0 c).arrAt w (cfgs 0).N) (Proc.devRef .tc main_v11_1) = arrA m c :=
  (Pipeline.withArrays_arr spec0 launch0.win.arr_inj c _ _ 12).trans (final12 m c)

theorem tail_a (c : Dev nD) : Pipeline.afterTail₀ cfgs (dats m) 0 (V0 m) [hostOps1] c main_v13
    = (shapeCast S8x2048x1024 (arrA m c) shapeCasts_S16384x1024_S8x2048x1024 : S8x2048x1024.Idx → EReal) := by
  unfold Pipeline.afterTail₀
  show StableHlo.after hostOps1 _ (Proc.devRef .tc main_v13) = _
  after_results
  rw [left_a m c]
  rfl

/-- The region leaves `arrC` in output array 13, also as the host lines after it see it. -/
theorem left_c (c : Dev nD) :
    Pipeline.withArrays (cfgs 0).spec c (V0 m c) (fun w => (dats m 0 c).arrAt w (cfgs 0).N) (Proc.devRef .tc main_v11_2) = arrC m c :=
  (Pipeline.withArrays_arr spec0 launch0.win.arr_inj c _ _ 13).trans (final13 m c)

theorem tail_c (c : Dev nD) : Pipeline.afterTail₀ cfgs (dats m) 0 (V0 m) [hostOps1] c main_v14
    = (shapeCast S8x2048x1024 (arrC m c) shapeCasts_S16384x1024_S8x2048x1024 : S8x2048x1024.Idx → EReal) := by
  unfold Pipeline.afterTail₀
  show StableHlo.after hostOps1 _ (Proc.devRef .tc main_v14) = _
  after_results
  rw [left_c m c]
  rfl

/-! ## The three results -/

theorem res_o (c : Dev nD) : Pipeline.afterTail₀ cfgs (dats m) 0 (V0 m) [hostOps1] c main_v12
    = outO (m ((c : Thread nD τ).loc main_arg1)) (m ((c : Thread nD τ).loc main_arg0)) (m ((c : Thread nD τ).loc main_arg9)) (m ((c : Thread nD τ).loc main_arg10)) := by
  rw [tail_o]
  funext i
  obtain ⟨β, s, h, rfl⟩ : ∃ (β : Fin 8) (s : Fin 2048) (h : Fin 1024), i = ix3 β s h := ⟨i 0, i 1, i 2, eq_ix3 i⟩
  exact (shapeCast_rc_abc_apply (arrO m c) shapeCasts_S16384x1024_S8x2048x1024 rows_eq β s h).trans (arrO_at m c β s h)

theorem res_a (c : Dev nD) : Pipeline.afterTail₀ cfgs (dats m) 0 (V0 m) [hostOps1] c main_v13
    = outA (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [tail_a]
  funext i
  obtain ⟨β, s, h, rfl⟩ : ∃ (β : Fin 8) (s : Fin 2048) (h : Fin 1024), i = ix3 β s h := ⟨i 0, i 1, i 2, eq_ix3 i⟩
  exact (shapeCast_rc_abc_apply (arrA m c) shapeCasts_S16384x1024_S8x2048x1024 rows_eq β s h).trans (arrA_at m c β s h)

theorem res_c (c : Dev nD) : Pipeline.afterTail₀ cfgs (dats m) 0 (V0 m) [hostOps1] c main_v14
    = outC (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [tail_c]
  funext i
  obtain ⟨β, s, h, rfl⟩ : ∃ (β : Fin 8) (s : Fin 2048) (h : Fin 1024), i = ix3 β s h := ⟨i 0, i 1, i 2, eq_ix3 i⟩
  exact (shapeCast_rc_abc_apply (arrC m c) shapeCasts_S16384x1024_S8x2048x1024 rows_eq β s h).trans (arrC_at m c β s h)

/-! ## The run -/

/-- Every weakly fair execution of the kernel program terminates with the three results at the cell's three functions
    of the arguments and every argument as launched. -/
theorem run : θ_run defs (onTc (τ := τ) (main (F := Ideal))) ⟨m, fun _ => 0, ρ⟩ fun r => ∀ c : Dev nD,
      r.2.mem ((c : Thread nD τ).loc main_v12) = outO (m ((c : Thread nD τ).loc main_arg1)) (m ((c : Thread nD τ).loc main_arg0)) (m ((c : Thread nD τ).loc main_arg9)) (m ((c : Thread nD τ).loc main_arg10))
      ∧ r.2.mem ((c : Thread nD τ).loc main_v13) = outA (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v14) = outC (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
    ⟨((h c).2 main_v12 (Pipeline.mem_restRefs_of main_v12 (by decide) (by decide))).trans (res_o m c),
      ((h c).2 main_v13 (Pipeline.mem_restRefs_of main_v13 (by decide) (by decide))).trans (res_a m c),
      ((h c).2 main_v14 (Pipeline.mem_restRefs_of main_v14 (by decide) (by decide))).trans (res_c m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Whole

end
-- ==== Proof.RefValue.lean ====
/-
  The reference's three results are the cell's three functions of the arguments.

  The reference joins the state and the input along the last axis into rows of 2048, stacks the four weight matrices
  into 4096 rows and the four biases into 4096 entries, takes ONE product of the joined rows with the stacked weights,
  adds the stacked bias, and cuts the 4096 columns into four gates of 1024. Column `off + h` of the product, with
  `off` = 0, 1024, 2048, 3072, is the joined row against row `h` of the weight of that gate plus entry `h` of its
  bias: a stacked array read inside one of its pieces is that piece. The joined row against a weight row is the state
  row against its first half plus the input row against its second half. The logistic function arrives spelt out as
  1 / (1 + exp (−z)) with the constant 1 spread from a rank-zero array; on the extended reals that expression is the
  logistic function.
-/
import proofs.«158978_j31104153158088_2_alg».proof.Proof.Gen.ReferenceIdeal.Read
import proofs.«158978_j31104153158088_2_alg».proof.Proof.LstmCell
import Idealize.ShloMosaic.Lib.IdealHost
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.LstmCell

abbrev Act := (⟨S8x2048x1024, .f32⟩ : BufTy).Contents (Elt Ideal)
abbrev Wt := (⟨S1024x2048, .f32⟩ : BufTy).Contents (Elt Ideal)
abbrev Bs := (⟨S1024, .f32⟩ : BufTy).Contents (Elt Ideal)

/-! ## The joined row -/

/-- A position of the first half of the joined row holds the state. -/
theorem joined_lo (x0 x1 : Act) (β : Fin 8) (τ : Fin 2048) (k : Fin 1024) :
    val_main_v0 (F := Ideal) x0 x1 (ix3 β τ (lo k)) = x1 (ix3 β τ k) := by
  unfold val_main_v0
  exact concatenate_pair_apply_left (2 : Fin S8x2048x2048.rank) x1 x0 concatenates_S8x2048x1024_S8x2048x1024_S8x2048x2048_d2
    (ix3 β τ (lo k)) rfl (ix3 β τ k) (fun b => by
      match b with
      | ⟨0, _⟩ => rfl
      | ⟨1, _⟩ => rfl
      | ⟨2, _⟩ => rfl)

/-- A position of the second half of the joined row holds the input. -/
theorem joined_hi (x0 x1 : Act) (β : Fin 8) (τ : Fin 2048) (k : Fin 1024) :
    val_main_v0 (F := Ideal) x0 x1 (ix3 β τ (hi k)) = x0 (ix3 β τ k) := by
  unfold val_main_v0
  exact concatenate_pair_apply_right (2 : Fin S8x2048x2048.rank) x1 x0 concatenates_S8x2048x1024_S8x2048x1024_S8x2048x2048_d2
    (ix3 β τ (hi k)) rfl rfl (ix3 β τ k) (fun b hb => by
      match b with
      | ⟨0, _⟩ => rfl
      | ⟨1, _⟩ => rfl
      | ⟨2, _⟩ => exact absurd rfl hb) (by show k.val + 1024 = 1024 + k.val; omega)

/-! ## The stacked weights and biases, read inside one piece -/

/-- Column `off + h` of the 4096 gate columns. -/
def col (off : ℕ) (hoff : off + 1024 ≤ 4096) (h : Fin 1024) : Fin 4096 := ⟨off + h.val, by have := h.isLt; omega⟩

/-- Row `0 + h` of the stacked weights is row `h` of weight 0. -/
theorem wstack_0 (x3 x5 x7 x9 : Wt) (h : Fin 1024) (k : Fin 2048) :
    val_main_v1 (F := Ideal) x3 x5 x7 x9 (ix2 (col 0 (by norm_num) h) k) = x3 (ix2 h k) := by
  unfold val_main_v1
  exact concatenate_apply_piece (0 : Fin S4096x2048.rank) [⟨S1024x2048, x3⟩, ⟨S1024x2048, x5⟩, ⟨S1024x2048, x7⟩, ⟨S1024x2048, x9⟩]
    concatenates_S1024x2048_S1024x2048_S1024x2048_S1024x2048_S4096x2048_d0
    (ix2 (col 0 (by norm_num) h) k) 0 (by show (0 : ℕ) < 4; omega) S1024x2048 x3 rfl rfl 0 rfl (ix2 h k) (fun b hb => by
      match b with
      | ⟨0, _⟩ => exact absurd rfl hb
      | ⟨1, _⟩ => rfl) rfl

/-- Entry `0 + h` of the stacked biases is entry `h` of bias 0. -/
theorem bstack_0 (x4 x6 x8 x10 : Bs) (h : Fin 1024) :
    val_main_v2 (F := Ideal) x4 x6 x8 x10 (ix1 (col 0 (by norm_num) h)) = x4 (ix1 h) := by
  unfold val_main_v2
  exact concatenate_apply_piece (0 : Fin S4096.rank) [⟨S1024, x4⟩, ⟨S1024, x6⟩, ⟨S1024, x8⟩, ⟨S1024, x10⟩]
    concatenates_S1024_S1024_S1024_S1024_S4096_d0
    (ix1 (col 0 (by norm_num) h)) 0 (by show (0 : ℕ) < 4; omega) S1024 x4 rfl rfl 0 rfl (ix1 h) (fun b hb => by
      match b with
      | ⟨0, _⟩ => exact absurd rfl hb) rfl

/-- Row `1024 + h` of the stacked weights is row `h` of weight 1. -/
theorem wstack_1 (x3 x5 x7 x9 : Wt) (h : Fin 1024) (k : Fin 2048) :
    val_main_v1 (F := Ideal) x3 x5 x7 x9 (ix2 (col 1024 (by norm_num) h) k) = x5 (ix2 h k) := by
  unfold val_main_v1
  exact concatenate_apply_piece (0 : Fin S4096x2048.rank) [⟨S1024x2048, x3⟩, ⟨S1024x2048, x5⟩, ⟨S1024x2048, x7⟩, ⟨S1024x2048, x9⟩]
    concatenates_S1024x2048_S1024x2048_S1024x2048_S1024x2048_S4096x2048_d0
    (ix2 (col 1024 (by norm_num) h) k) 1 (by show (1 : ℕ) < 4; omega) S1024x2048 x5 rfl rfl 1024 rfl (ix2 h k) (fun b hb => by
      match b with
      | ⟨0, _⟩ => exact absurd rfl hb
      | ⟨1, _⟩ => rfl) rfl

/-- Entry `1024 + h` of the stacked biases is entry `h` of bias 1. -/
theorem bstack_1 (x4 x6 x8 x10 : Bs) (h : Fin 1024) :
    val_main_v2 (F := Ideal) x4 x6 x8 x10 (ix1 (col 1024 (by norm_num) h)) = x6 (ix1 h) := by
  unfold val_main_v2
  exact concatenate_apply_piece (0 : Fin S4096.rank) [⟨S1024, x4⟩, ⟨S1024, x6⟩, ⟨S1024, x8⟩, ⟨S1024, x10⟩]
    concatenates_S1024_S1024_S1024_S1024_S4096_d0
    (ix1 (col 1024 (by norm_num) h)) 1 (by show (1 : ℕ) < 4; omega) S1024 x6 rfl rfl 1024 rfl (ix1 h) (fun b hb => by
      match b with
      | ⟨0, _⟩ => exact absurd rfl hb) rfl

/-- Row `2048 + h` of the stacked weights is row `h` of weight 2. -/
theorem wstack_2 (x3 x5 x7 x9 : Wt) (h : Fin 1024) (k : Fin 2048) :
    val_main_v1 (F := Ideal) x3 x5 x7 x9 (ix2 (col 2048 (by norm_num) h) k) = x7 (ix2 h k) := by
  unfold val_main_v1
  exact concatenate_apply_piece (0 : Fin S4096x2048.rank) [⟨S1024x2048, x3⟩, ⟨S1024x2048, x5⟩, ⟨S1024x2048, x7⟩, ⟨S1024x2048, x9⟩]
    concatenates_S1024x2048_S1024x2048_S1024x2048_S1024x2048_S4096x2048_d0
    (ix2 (col 2048 (by norm_num) h) k) 2 (by show (2 : ℕ) < 4; omega) S1024x2048 x7 rfl rfl 2048 rfl (ix2 h k) (fun b hb => by
      match b with
      | ⟨0, _⟩ => exact absurd rfl hb
      | ⟨1, _⟩ => rfl) rfl

/-- Entry `2048 + h` of the stacked biases is entry `h` of bias 2. -/
theorem bstack_2 (x4 x6 x8 x10 : Bs) (h : Fin 1024) :
    val_main_v2 (F := Ideal) x4 x6 x8 x10 (ix1 (col 2048 (by norm_num) h)) = x8 (ix1 h) := by
  unfold val_main_v2
  exact concatenate_apply_piece (0 : Fin S4096.rank) [⟨S1024, x4⟩, ⟨S1024, x6⟩, ⟨S1024, x8⟩, ⟨S1024, x10⟩]
    concatenates_S1024_S1024_S1024_S1024_S4096_d0
    (ix1 (col 2048 (by norm_num) h)) 2 (by show (2 : ℕ) < 4; omega) S1024 x8 rfl rfl 2048 rfl (ix1 h) (fun b hb => by
      match b with
      | ⟨0, _⟩ => exact absurd rfl hb) rfl

/-- Row `3072 + h` of the stacked weights is row `h` of weight 3. -/
theorem wstack_3 (x3 x5 x7 x9 : Wt) (h : Fin 1024) (k : Fin 2048) :
    val_main_v1 (F := Ideal) x3 x5 x7 x9 (ix2 (col 3072 (by norm_num) h) k) = x9 (ix2 h k) := by
  unfold val_main_v1
  exact concatenate_apply_piece (0 : Fin S4096x2048.rank) [⟨S1024x2048, x3⟩, ⟨S1024x2048, x5⟩, ⟨S1024x2048, x7⟩, ⟨S1024x2048, x9⟩]
    concatenates_S1024x2048_S1024x2048_S1024x2048_S1024x2048_S4096x2048_d0
    (ix2 (col 3072 (by norm_num) h) k) 3 (by show (3 : ℕ) < 4; omega) S1024x2048 x9 rfl rfl 3072 rfl (ix2 h k) (fun b hb => by
      match b with
      | ⟨0, _⟩ => exact absurd rfl hb
      | ⟨1, _⟩ => rfl) rfl

/-- Entry `3072 + h` of the stacked biases is entry `h` of bias 3. -/
theorem bstack_3 (x4 x6 x8 x10 : Bs) (h : Fin 1024) :
    val_main_v2 (F := Ideal) x4 x6 x8 x10 (ix1 (col 3072 (by norm_num) h)) = x10 (ix1 h) := by
  unfold val_main_v2
  exact concatenate_apply_piece (0 : Fin S4096.rank) [⟨S1024, x4⟩, ⟨S1024, x6⟩, ⟨S1024, x8⟩, ⟨S1024, x10⟩]
    concatenates_S1024_S1024_S1024_S1024_S4096_d0
    (ix1 (col 3072 (by norm_num) h)) 3 (by show (3 : ℕ) < 4; omega) S1024 x10 rfl rfl 3072 rfl (ix1 h) (fun b hb => by
      match b with
      | ⟨0, _⟩ => exact absurd rfl hb) rfl

/-! ## One gate column of the product plus bias -/

/-- Column `g` of the product plus the stacked bias, when row `g` of the stacked weights is row `h` of `w` and entry
    `g` of the stacked biases is entry `h` of `b`: the gate's pre-activation. -/
theorem gate_at (x0 x1 : Act) (x3 : Wt) (x4 : Bs) (x5 : Wt) (x6 : Bs) (x7 : Wt) (x8 : Bs) (x9 : Wt) (x10 : Bs) (w : Wt) (b : Bs) (β : Fin 8) (τ : Fin 2048) (h : Fin 1024) (g : Fin 4096)
    (hw : ∀ k : Fin 2048, val_main_v1 (F := Ideal) x3 x5 x7 x9 (ix2 g k) = w (ix2 h k))
    (hb : val_main_v2 (F := Ideal) x4 x6 x8 x10 (ix1 g) = b (ix1 h)) :
    val_main_v6 (F := Ideal) x0 x1 x3 x4 x5 x6 x7 x8 x9 x10 (ix3 β τ g) = pre x1 x0 w b β τ h := by
  have e1 : ∀ k, lidx_main_v3 (ix3 β τ g) k = ix3 β τ k := fun k => funext fun a => by
    match a with
    | ⟨0, _⟩ => rfl
    | ⟨1, _⟩ => rfl
    | ⟨2, _⟩ => rfl
  have e2 : ∀ k, ridx_main_v3 (ix3 β τ g) k = ix2 g k := fun k => funext fun a => by
    match a with
    | ⟨0, _⟩ => rfl
    | ⟨1, _⟩ => rfl
  have e3 : idx_main_v4 (idx_main_v5 (ix3 β τ g)) = ix1 g := funext fun a => by
    match a with
    | ⟨0, _⟩ => rfl
  have hsum : (∑ k : Fin 2048, val_main_v0 (F := Ideal) x0 x1 (lidx_main_v3 (ix3 β τ g) k)
        * val_main_v1 (F := Ideal) x3 x5 x7 x9 (ridx_main_v3 (ix3 β τ g) k))
      = ∑ k : Fin 2048, val_main_v0 (F := Ideal) x0 x1 (ix3 β τ k) * w (ix2 h k) :=
    Finset.sum_congr rfl fun k _ => by rw [e1 k, e2 k, hw k]
  rw [val_main_v6_apply, val_main_v3_apply, val_main_v5_apply, val_main_v4_apply, hsum, e3, hb]
  exact gateJoined_eq_split (fun k => x1 (ix3 β τ k)) (fun k => x0 (ix3 β τ k))
    (fun k => val_main_v0 (F := Ideal) x0 x1 (ix3 β τ k)) (fun k => w (ix2 h k)) (b (ix1 h))
    (joined_lo x0 x1 β τ) (joined_hi x0 x1 β τ)

/-- The cut at column 0: gate 0's pre-activation. -/
theorem slice_f (x0 x1 : Act) (x3 : Wt) (x4 : Bs) (x5 : Wt) (x6 : Bs) (x7 : Wt) (x8 : Bs) (x9 : Wt) (x10 : Bs) (β : Fin 8) (τ : Fin 2048) (h : Fin 1024) :
    val_main_v7 (F := Ideal) x0 x1 x3 x4 x5 x6 x7 x8 x9 x10 (ix3 β τ h) = pre x1 x0 x3 x4 β τ h := by
  have e : idx_main_v7 (ix3 β τ h) = ix3 β τ (col 0 (by norm_num) h) := funext fun a => by
    match a with
    | ⟨0, _⟩ => rfl
    | ⟨1, _⟩ => rfl
    | ⟨2, _⟩ => exact Fin.ext (Nat.zero_add _).symm
  rw [val_main_v7_apply, e]
  exact gate_at x0 x1 x3 x4 x5 x6 x7 x8 x9 x10 x3 x4 β τ h _ (fun k => wstack_0 x3 x5 x7 x9 h k) (bstack_0 x4 x6 x8 x10 h)

/-- The cut at column 1024: gate 1's pre-activation. -/
theorem slice_i (x0 x1 : Act) (x3 : Wt) (x4 : Bs) (x5 : Wt) (x6 : Bs) (x7 : Wt) (x8 : Bs) (x9 : Wt) (x10 : Bs) (β : Fin 8) (τ : Fin 2048) (h : Fin 1024) :
    val_main_v8 (F := Ideal) x0 x1 x3 x4 x5 x6 x7 x8 x9 x10 (ix3 β τ h) = pre x1 x0 x5 x6 β τ h := by
  have e : idx_main_v8 (ix3 β τ h) = ix3 β τ (col 1024 (by norm_num) h) := funext fun a => by
    match a with
    | ⟨0, _⟩ => rfl
    | ⟨1, _⟩ => rfl
    | ⟨2, _⟩ => rfl
  rw [val_main_v8_apply, e]
  exact gate_at x0 x1 x3 x4 x5 x6 x7 x8 x9 x10 x5 x6 β τ h _ (fun k => wstack_1 x3 x5 x7 x9 h k) (bstack_1 x4 x6 x8 x10 h)

/-- The cut at column 2048: gate 2's pre-activation. -/
theorem slice_g (x0 x1 : Act) (x3 : Wt) (x4 : Bs) (x5 : Wt) (x6 : Bs) (x7 : Wt) (x8 : Bs) (x9 : Wt) (x10 : Bs) (β : Fin 8) (τ : Fin 2048) (h : Fin 1024) :
    val_main_v9 (F := Ideal) x0 x1 x3 x4 x5 x6 x7 x8 x9 x10 (ix3 β τ h) = pre x1 x0 x7 x8 β τ h := by
  have e : idx_main_v9 (ix3 β τ h) = ix3 β τ (col 2048 (by norm_num) h) := funext fun a => by
    match a with
    | ⟨0, _⟩ => rfl
    | ⟨1, _⟩ => rfl
    | ⟨2, _⟩ => rfl
  rw [val_main_v9_apply, e]
  exact gate_at x0 x1 x3 x4 x5 x6 x7 x8 x9 x10 x7 x8 β τ h _ (fun k => wstack_2 x3 x5 x7 x9 h k) (bstack_2 x4 x6 x8 x10 h)

/-- The cut at column 3072: gate 3's pre-activation. -/
theorem slice_o (x0 x1 : Act) (x3 : Wt) (x4 : Bs) (x5 : Wt) (x6 : Bs) (x7 : Wt) (x8 : Bs) (x9 : Wt) (x10 : Bs) (β : Fin 8) (τ : Fin 2048) (h : Fin 1024) :
    val_main_v10 (F := Ideal) x0 x1 x3 x4 x5 x6 x7 x8 x9 x10 (ix3 β τ h) = pre x1 x0 x9 x10 β τ h := by
  have e : idx_main_v10 (ix3 β τ h) = ix3 β τ (col 3072 (by norm_num) h) := funext fun a => by
    match a with
    | ⟨0, _⟩ => rfl
    | ⟨1, _⟩ => rfl
    | ⟨2, _⟩ => rfl
  rw [val_main_v10_apply, e]
  exact gate_at x0 x1 x3 x4 x5 x6 x7 x8 x9 x10 x9 x10 β τ h _ (fun k => wstack_3 x3 x5 x7 x9 h k) (bstack_3 x4 x6 x8 x10 h)

/-! ## The logistic function, spelt out -/

/-- The word of the constant is the extended real one. -/
theorem one_eq : FloatOps.ofBits (F := Ideal) .f32 0x3F800000#32 = (1 : EReal) := Ideal.ofBits_one_f32

/-- 1 / (1 + exp (−z)) in the host's operations is the logistic function of `z`. -/
theorem logistic_spelt (z : EReal) :
    FloatOps.hostDivf (F := Ideal) (φ := .f32) (1 : EReal) (FloatOps.addf (F := Ideal) (φ := .f32) (1 : EReal)
      (FloatOps.hostUnary (F := Ideal) (φ := .f32) .exp (FloatOps.hostNegf (F := Ideal) (φ := .f32) z))) = Ideal.logistic z := rfl

theorem sig_f (x0 x1 : Act) (x3 : Wt) (x4 : Bs) (x5 : Wt) (x6 : Bs) (x7 : Wt) (x8 : Bs) (x9 : Wt) (x10 : Bs) (i : S8x2048x1024.Idx) :
    val_main_v16 (F := Ideal) x0 x1 x3 x4 x5 x6 x7 x8 x9 x10 i = Ideal.logistic (val_main_v7 (F := Ideal) x0 x1 x3 x4 x5 x6 x7 x8 x9 x10 i) := by
  rw [val_main_v16_apply, val_main_v15_apply, val_main_cst_0_apply, val_main_v14_apply, val_main_v13_apply, val_main_cst_apply,
    val_main_v12_apply, val_main_v11_apply, one_eq]
  exact logistic_spelt _

theorem sig_i (x0 x1 : Act) (x3 : Wt) (x4 : Bs) (x5 : Wt) (x6 : Bs) (x7 : Wt) (x8 : Bs) (x9 : Wt) (x10 : Bs) (i : S8x2048x1024.Idx) :
    val_main_v22 (F := Ideal) x0 x1 x3 x4 x5 x6 x7 x8 x9 x10 i = Ideal.logistic (val_main_v8 (F := Ideal) x0 x1 x3 x4 x5 x6 x7 x8 x9 x10 i) := by
  rw [val_main_v22_apply, val_main_v21_apply, val_main_cst_2_apply, val_main_v20_apply, val_main_v19_apply, val_main_cst_1_apply,
    val_main_v18_apply, val_main_v17_apply, one_eq]
  exact logistic_spelt _

theorem sig_o (x0 x1 : Act) (x3 : Wt) (x4 : Bs) (x5 : Wt) (x6 : Bs) (x7 : Wt) (x8 : Bs) (x9 : Wt) (x10 : Bs) (i : S8x2048x1024.Idx) :
    val_main_v32 (F := Ideal) x0 x1 x3 x4 x5 x6 x7 x8 x9 x10 i = Ideal.logistic (val_main_v10 (F := Ideal) x0 x1 x3 x4 x5 x6 x7 x8 x9 x10 i) := by
  rw [val_main_v32_apply, val_main_v31_apply, val_main_cst_4_apply, val_main_v30_apply, val_main_v29_apply, val_main_cst_3_apply,
    val_main_v28_apply, val_main_v27_apply, one_eq]
  exact logistic_spelt _

/-! ## The three results -/

/-- The reference's output gate. -/
theorem ref_o (x0 x1 : Act) (x3 : Wt) (x4 : Bs) (x5 : Wt) (x6 : Bs) (x7 : Wt) (x8 : Bs) (x9 : Wt) (x10 : Bs) : val_main_v32 (F := Ideal) x0 x1 x3 x4 x5 x6 x7 x8 x9 x10 = outO x1 x0 x9 x10 := by
  funext i
  obtain ⟨β, τ, h, rfl⟩ : ∃ (β : Fin 8) (τ : Fin 2048) (h : Fin 1024), i = ix3 β τ h := ⟨i 0, i 1, i 2, eq_ix3 i⟩
  rw [sig_o, slice_o]
  rfl

/-- The reference's new cell. -/
theorem ref_c (x0 x1 x2 : Act) (x3 : Wt) (x4 : Bs) (x5 : Wt) (x6 : Bs) (x7 : Wt) (x8 : Bs) (x9 : Wt) (x10 : Bs) : val_main_v26 (F := Ideal) x0 x1 x2 x3 x4 x5 x6 x7 x8 x9 x10 = outC x1 x0 x2 x3 x4 x5 x6 x7 x8 := by
  funext i
  obtain ⟨β, τ, h, rfl⟩ : ∃ (β : Fin 8) (τ : Fin 2048) (h : Fin 1024), i = ix3 β τ h := ⟨i 0, i 1, i 2, eq_ix3 i⟩
  rw [val_main_v26_apply, val_main_v23_apply, val_main_v25_apply, val_main_v24_apply, sig_f, sig_i, slice_f, slice_i, slice_g]
  rfl

/-- The reference's new state. -/
theorem ref_a (x0 x1 x2 : Act) (x3 : Wt) (x4 : Bs) (x5 : Wt) (x6 : Bs) (x7 : Wt) (x8 : Bs) (x9 : Wt) (x10 : Bs) : val_main_v34 (F := Ideal) x0 x1 x2 x3 x4 x5 x6 x7 x8 x9 x10 = outA x1 x0 x2 x3 x4 x5 x6 x7 x8 x9 x10 := by
  funext i
  obtain ⟨β, τ, h, rfl⟩ : ∃ (β : Fin 8) (τ : Fin 2048) (h : Fin 1024), i = ix3 β τ h := ⟨i 0, i 1, i 2, eq_ix3 i⟩
  rw [val_main_v34_apply, val_main_v33_apply, ref_c, sig_o, slice_o]
  rfl

end Cert.ReferenceIdeal.RefValue

end
-- ==== Proof.lean ====
/-
  One step of an LSTM cell as a tiled kernel against its plain reference: the certificate's five claims.

  Both programs take the input x, the state a, the old cell c (each [8, 2048, 1024]), four weights [1024, 2048] and four
  biases [1024], and return the output gate o, the new state a' and the new cell c'. With, for each of the four gates,
  the pre-activation  z(β, τ, h) = Σ_{k<1024} a(β, τ, k)·W(h, k) + Σ_{k<1024} x(β, τ, k)·W(h, 1024 + k) + b(h),
    o = σ(z_o),   c' = σ(z_f)·c + σ(z_i)·tanh(z_g),   a' = o·tanh(c'),
  σ the logistic function (`LstmCell.outO`, `outA`, `outC`).

  The kernel merges (β, τ) into 16384 rows, runs 32 blocks of 512 rows, each with two products per gate (state rows
  against the first 1024 columns of the weight, input rows against the last 1024) into zero accumulators, and splits
  the rows back. The reference joins [a | x] into rows of 2048, stacks the four weights and biases, takes one product
  and cuts four gates out of it. On the extended reals the two agree index by index: a sum over 2048 positions is the
  sum over its two halves (addition there is commutative and associative, so no entry need be finite and the
  precondition is never opened), a product into a zero accumulator is a plain sum, a change of float format is the
  identity, and 1 / (1 + exp (−z)) is the logistic function.

  The frames of the two kernel programs are the generated ones; the reference's frame is its generated run with the
  results dropped; the idealization rewrote nothing, so `preserves` is trivially true.
-/
import proofs.«158978_j31104153158088_2_alg».proof.Defs
import proofs.«158978_j31104153158088_2_alg».proof.Proof.Gen.Kernel
import proofs.«158978_j31104153158088_2_alg».proof.Proof.Gen.Kernel.Skeleton
import proofs.«158978_j31104153158088_2_alg».proof.Proof.Gen.Kernel.Launch
import proofs.«158978_j31104153158088_2_alg».proof.Proof.Gen.Kernel.Points
import proofs.«158978_j31104153158088_2_alg».proof.Proof.Gen.Kernel.Frame
import proofs.«158978_j31104153158088_2_alg».proof.Proof.Gen.KernelIdeal
import proofs.«158978_j31104153158088_2_alg».proof.Proof.Gen.KernelIdeal.Skeleton
import proofs.«158978_j31104153158088_2_alg».proof.Proof.Gen.KernelIdeal.Launch
import proofs.«158978_j31104153158088_2_alg».proof.Proof.Gen.KernelIdeal.Points
import proofs.«158978_j31104153158088_2_alg».proof.Proof.Gen.KernelIdeal.Frame
import proofs.«158978_j31104153158088_2_alg».proof.Proof.Gen.ReferenceIdeal
import proofs.«158978_j31104153158088_2_alg».proof.Proof.Gen.Pre_finite_inputs
import proofs.«158978_j31104153158088_2_alg».proof.Proof.Gen.ReferenceIdeal.Run
import proofs.«158978_j31104153158088_2_alg».proof.Proof.Gen.ReferenceIdeal.Read
import proofs.«158978_j31104153158088_2_alg».proof.Proof.KernelWhole
import proofs.«158978_j31104153158088_2_alg».proof.Proof.RefValue
import Idealize.ShloMosaic.Adequacy
import Idealize.ShloMosaic.Init

noncomputable section

namespace Cert.Proof

open Idealize.ShloMosaic Idealize.SL.Sem

/-- The kernel as printed: the generated frame. -/
theorem frame_kernel : Cert.frame_Kernel := fun m ρ _ => Cert.Kernel.Gen.frame m ρ

/-- The idealized kernel: the generated frame. -/
theorem frame_kernelIdeal : Cert.frame_KernelIdeal := fun m ρ _ => Cert.KernelIdeal.Gen.frame m ρ

/-- The idealized reference: its run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the eleven arguments both programs end with the output gate, the new state and the new
    cell at the cell's three functions of those arguments. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨h0, h1, h2, h3, h4, h5, h6, h7, h8, h9, h10⟩ := hagree c
    rw [Cert.ReferenceIdeal.Read.val_main_v32_eq, Cert.ReferenceIdeal.RefValue.ref_o, h0, h1, h9, h10]
  · obtain ⟨h0, h1, h2, h3, h4, h5, h6, h7, h8, h9, h10⟩ := hagree c
    rw [Cert.ReferenceIdeal.Read.val_main_v34_eq, Cert.ReferenceIdeal.RefValue.ref_a, h0, h1, h2, h3, h4, h5, h6, h7, h8, h9, h10]
  · obtain ⟨h0, h1, h2, h3, h4, h5, h6, h7, h8, h9, h10⟩ := hagree c
    rw [Cert.ReferenceIdeal.Read.val_main_v26_eq, Cert.ReferenceIdeal.RefValue.ref_c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
